-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x20 : Shape := ⟨2, ![32, 20]⟩
abbrev S20 : Shape := ⟨1, ![20]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x20 : S_.BroadcastsInDim S32x20 (![] : Fin 0 → Fin S32x20.rank)
  reducesTo_S32x20_S_d0_1 : S32x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg5 : FVec F S32 .f32) (main_arg6 : FVec F S32x20 .f32) (main_arg7 : FVec F S20 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x20 .f32 := Host.absf main_arg6
  let main_cst_8 : FVec F S_ .f32 := constant S_ .f32 0x7F800000#32
  let main_v25 : FVec F S32x20 .f32 := broadcastInDim S32x20 ![] bcast_S_S32x20 main_cst_8
  let main_v26 : IVec S32x20 1 := cmpf .olt main_v24 main_v25
  let main_c_9 : IVec S_ 1 := constantI S_ 1 1#1
  let main_v27 : IVec S_ 1 := (fun x v => Host.reduce IntOp.andi x v reducesTo_S32x20_S_d0_1 h_S_) main_v26 main_c_9
  let main_v28 : IVec S_ 1 := andi main_v23 main_v27
  let main_v29 : FVec F S20 .f32 := Host.absf main_arg7
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x32 .f32) (main_arg3 : FVec F S32 .f32) (main_arg4 : FVec F S32x32 .f32) (main_arg5 : FVec F S32 .f32) (main_arg6 : FVec F S32x20 .f32) (main_arg7 : FVec F S20 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x20 : Shape := ⟨2, ![32, 20]⟩
abbrev S20 : Shape := ⟨1, ![20]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x32 : Shape := ⟨2, ![100000, 32]⟩
abbrev S5000x128 : Shape := ⟨2, ![5000, 128]⟩
abbrev S5000x32 : Shape := ⟨2, ![5000, 32]⟩
abbrev S3200000x32 : Shape := ⟨2, ![3200000, 32]⟩
abbrev S1x32 : Shape := ⟨2, ![1, 32]⟩
abbrev S1x20 : Shape := ⟨2, ![1, 20]⟩
abbrev S100000x20 : Shape := ⟨2, ![100000, 20]⟩
abbrev S5000x20 : Shape := ⟨2, ![5000, 20]⟩
abbrev S5000 : Shape := ⟨1, ![5000]⟩
abbrev S5000x1 : Shape := ⟨2, ![5000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x20, .f32⟩
  | .hbm, ⟨7, _⟩ => ⟨S20, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000, .f32⟩
  | .hbm, ⟨47, _⟩ => ⟨S3200000, .f32⟩
  | .hbm, ⟨48, _⟩ => ⟨S100000x32, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000x32, .f32⟩
  | .hbm, ⟨58, _⟩ => ⟨S3200000x1, .f32⟩
  | .hbm, ⟨59, _⟩ => ⟨S3200000x32, .f32⟩
  | .hbm, ⟨60, _⟩ => ⟨S3200000x32, .f32⟩
  | .hbm, ⟨61, _⟩ => ⟨S_, .f32⟩
  | .hbm, ⟨62, _⟩ => ⟨S100000x32, .f32⟩
  | .hbm, ⟨63, _⟩ => ⟨S3200000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x32, .f32⟩
  | .hbm, ⟨76, _⟩ => ⟨S3200000x1, .f32⟩
  | .hbm, ⟨77, _⟩ => ⟨S3200000x32, .f32⟩
  | .hbm, ⟨78, _⟩ => ⟨S3200000x32, .f32⟩
  | .hbm, ⟨79, _⟩ => ⟨S_, .f32⟩
  | .hbm, ⟨80, _⟩ => ⟨S100000x32, .f32⟩
  | .hbm, ⟨81, _⟩ => ⟨S3200000x1, .i32⟩
  | .hbm, ⟨82, _⟩ => ⟨S100000x32, .f32⟩
  | .hbm, ⟨83, _⟩ => ⟨S1x32, .f32⟩
  | .hbm, ⟨84, _⟩ => ⟨S1x20, .f32⟩
  | .hbm, ⟨85, _⟩ => ⟨S100000x20, .f32⟩
  | .hbm, ⟨86, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S32x20, .f32⟩
  | .local _ .vmem, ⟨15, _⟩ => ⟨S1x20, .f32⟩
  | .local _ .vmem, ⟨16, _⟩ => ⟨S5000x20, .f32⟩
  | .local _ .vmem, ⟨17, _⟩ => ⟨S5000x20, .f32⟩
  | .local _ .vmem, ⟨18, _⟩ => ⟨S5000x32, .f32⟩
  | .local _ .vmem, ⟨19, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60_0 : Ref sig .tc := ⟨.hbm, 85, rfl⟩
abbrev main_v60_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x20 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x20 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  shapeCasts_S20_S1x20 : S20.ShapeCasts S1x20
  inb_S32x20_S32x20_0_0 : ∀ a, (![0, 0] : Fin 2 → Nat) a + S32x20.size a ≤ S32x20.size a
  h_S32x20 : 0 < S32x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  reduces_S5000x20_S5000 : S5000x20.Reduces [1] S5000
  shapeCasts_S5000_S5000x1 : S5000.ShapeCasts S5000x1
  broadcasts_S5000x1_S5000x20 : S5000x1.Broadcasts S5000x20
  inb_S5000x20_S5000x20_0_0 : ∀ a, (![0, 0] : Fin 2 → Nat) a + S5000x20.size a ≤ S5000x20.size a
  h_S5000x20 : 0 < S5000x20.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x32_S5000x32_1_0_0_1_n_n_wf : DotDims.WF S5000x128 S128x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  dot_S5000x32_S32x20_S5000x20_1_0_0_1_n_n_wf : DotDims.WF S5000x32 S32x20 S5000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x20.size a ≤ S32x20.size a
  hwx2_2 : ∀ i : grid2.Coords, EltTy.bits .f32 = 32 ∨ (Rect.block (s := S32x20) S32x20.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x20.size a ≤ S1x20.size a
  hwx2_3 : ∀ i : grid2.Coords, EltTy.bits .f32 = 32 ∨ (Rect.block (s := S1x20) S1x20.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x20.size a ≤ S100000x20.size a
  hwx2_4 : ∀ i : grid2.Coords, EltTy.bits .f32 = 32 ∨ (Rect.block (s := S100000x20) S5000x20.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S100000x32.size a
  hwx2_5 : ∀ i : grid2.Coords, EltTy.bits .f32 = 32 ∨ (Rect.block (s := S100000x32) S5000x32.size (cc2_transform_5 i) (hinb2_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x20_S5000x20_1_0_0_1_n_n : DotDims S5000x32 S32x20 S5000x20 where
  lhsContracting := [1]
  rhsContracting := [0]
  lhsNonContracting := [0]
  rhsNonContracting := [1]
  lhsBatch := []
  rhsBatch := []
  wf := dot_S5000x32_S32x20_S5000x20_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x20.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60_0) S5000x20.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v60_1) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x20 : Shape := ⟨2, ![32, 20]⟩
abbrev S20 : Shape := ⟨1, ![20]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x32 : Shape := ⟨2, ![100000, 32]⟩
abbrev S3200000x32 : Shape := ⟨2, ![3200000, 32]⟩
abbrev S1x32 : Shape := ⟨2, ![1, 32]⟩
abbrev S100000x20 : Shape := ⟨2, ![100000, 20]⟩
abbrev S1x20 : Shape := ⟨2, ![1, 20]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x3200000, .i32⟩
  | 2 => ⟨S128x32, .f32⟩
  | 3 => ⟨S32, .f32⟩
  | 4 => ⟨S32x32, .f32⟩
  | 5 => ⟨S32, .f32⟩
  | 6 => ⟨S32x20, .f32⟩
  | 7 => ⟨S20, .f32⟩
  | 8 => ⟨S1x3200000, .i32⟩
  | 9 => ⟨S3200000, .i32⟩
  | 10 => ⟨S1x3200000, .i32⟩
  | 11 => ⟨S3200000, .i32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S_, .f32⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .i1⟩
  | 46 => ⟨S_, .f32⟩
  | 47 => ⟨S100000, .f32⟩
  | 48 => ⟨S100000, .f32⟩
  | 49 => ⟨S100000, .f32⟩
  | 50 => ⟨S_, .f32⟩
  | 51 => ⟨S100000, .f32⟩
  | 52 => ⟨S100000, .f32⟩
  | 53 => ⟨S_, .f32⟩
  | 54 => ⟨S_, .f32⟩
  | 55 => ⟨S100000, .f32⟩
  | 56 => ⟨S100000, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S3200000, .f32⟩
  | 75 => ⟨S3200000, .f32⟩
  | 76 => ⟨S100000x32, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x32, .f32⟩
  | 86 => ⟨S3200000x1, .f32⟩
  | 87 => ⟨S3200000x32, .f32⟩
  | 88 => ⟨S3200000x32, .f32⟩
  | 89 => ⟨S_, .f32⟩
  | 90 => ⟨S100000x32, .f32⟩
  | 91 => ⟨S3200000x1, .i32⟩
  | 92 => ⟨S100000x32, .f32⟩
  | 93 => ⟨S1x32, .f32⟩
  | 94 => ⟨S100000x32, .f32⟩
  | 95 => ⟨S100000x32, .f32⟩
  | 96 => ⟨S100000x32, .f32⟩
  | 97 => ⟨S100000x32, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000x32, .f32⟩
  | 107 => ⟨S3200000x1, .f32⟩
  | 108 => ⟨S3200000x32, .f32⟩
  | 109 => ⟨S3200000x32, .f32⟩
  | 110 => ⟨S_, .f32⟩
  | 111 => ⟨S100000x32, .f32⟩
  | 112 => ⟨S3200000x1, .i32⟩
  | 113 => ⟨S100000x32, .f32⟩
  | 114 => ⟨S1x32, .f32⟩
  | 115 => ⟨S100000x32, .f32⟩
  | 116 => ⟨S100000x32, .f32⟩
  | 117 => ⟨S100000x32, .f32⟩
  | 118 => ⟨S100000x20, .f32⟩
  | 119 => ⟨S1x20, .f32⟩
  | 120 => ⟨S100000x20, .f32⟩
  | 121 => ⟨S100000x20, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x20, .f32⟩
  | 1 => ⟨S100000x20, .f32⟩
  | 2 => ⟨S100000x20, .f32⟩
  | 3 => ⟨S_, .f32⟩
  | 4 => ⟨S100000, .f32⟩
  | 5 => ⟨S100000x1, .f32⟩
  | 6 => ⟨S100000x1, .f32⟩
  | 7 => ⟨S100000x20, .f32⟩
  | 8 => ⟨S100000x20, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_call2_v0 : Ref sig .tc := ⟨.hbm, 54, rfl⟩
abbrev main_call2_v1 : Ref sig .tc := ⟨.hbm, 55, rfl⟩
abbrev main_v30 : Ref sig .tc := ⟨.hbm, 56, rfl⟩
abbrev main_c : Ref sig .tc := ⟨.hbm, 57, rfl⟩
abbrev main_v31 : Ref sig .tc := ⟨.hbm, 58, rfl⟩
abbrev main_v32 : Ref sig .tc := ⟨.hbm, 59, rfl⟩
abbrev main_c_11 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_12 : Ref sig .tc := ⟨.hbm, 66, rfl⟩
abbrev main_v38 : Ref sig .tc := ⟨.hbm, 67, rfl⟩
abbrev main_v39 : Ref sig .tc := ⟨.hbm, 68, rfl⟩
abbrev main_c_13 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_14 : Ref sig .tc := ⟨.hbm, 77, rfl⟩
abbrev main_v47 : Ref sig .tc := ⟨.hbm, 78, rfl⟩
abbrev main_v48 : Ref sig .tc := ⟨.hbm, 79, rfl⟩
abbrev main_c_15 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_17 : Ref sig .tc := ⟨.hbm, 98, rfl⟩
abbrev main_v65 : Ref sig .tc := ⟨.hbm, 99, rfl⟩
abbrev main_v66 : Ref sig .tc := ⟨.hbm, 100, rfl⟩
abbrev main_c_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_19 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v86 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  reducesTo_S100000x20_S100000_d1 : S100000x20.ReducesTo [1] S100000
  h_S_ : 0 < S_.numel
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x128_S128x32_S100000x32_1_0_0_1_n_n_wf : DotDims.WF S100000x128 S128x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  dot_S100000x32_S32x20_S100000x20_1_0_0_1_n_n_wf : DotDims.WF S100000x32 S32x20 S100000x20 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x20_S100000x20_1_0_0_1_n_n : DotDims S100000x32 S32x20 S100000x20 where
  lhsContracting := [1]
  rhsContracting := [0]
  lhsNonContracting := [0]
  rhsNonContracting := [1]
  lhsBatch := []
  rhsBatch := []
  wf := dot_S100000x32_S32x20_S100000x20_1_0_0_1_n_n_wf

class Facts : Prop extends Facts₀ where

variable [Facts]
-- ==== Proof.Results.lean ====
/-
  The run of the whole program with its two result arrays named.

  The program is eight segments: three stretches of host operations, the first region, a stretch, the second region, a
  stretch, the third region. Every weakly fair execution terminates without a fault, and in its last state every buffer
  holds what the fold of the segments over the launch memory says (the contents at the last boundary); read at the two
  result buffers and at the eight arguments this is the statement below. The launch obligations (the ghost state dealt
  per core, the first thread state, the last one read against the final memory) are the ones of the frame claim; only the
  reading of the final memory differs: the frame claim reads the arguments, this reads the results as well.
-/
import proofs.«162919_j33122787787017_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the last
    boundary's contents and the arguments as launched. -/
theorem run : θ_run defs (onTc (τ := τ) (main (F := F))) ⟨m, fun _ => 0, ρ⟩ (fun r => ∀ c : Dev nD,
      r.2.mem ((c.tc : Thread nD τ).loc main_v60_0) = W8 m ρ c (Proc.devRef .tc main_v60_0)
      ∧ r.2.mem ((c.tc : Thread nD τ).loc main_v60_1) = W8 m ρ c (Proc.devRef .tc main_v60_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60_0 (by decide)),
       h c _ (mem_uc main_v60_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Results

end
-- ==== Proof.RefStages.lean ====
/-
  The reference program's run, stage by stage.

  The reference is one straight line of 129 host operations. Cut after the first matrix product, after the first
  aggregation, after the second matrix product, after the second aggregation, after the second activation, after the
  logits, after the rows' maxima, after the shifted logits, after the sums of their exponentials and at the end, the
  line is ten consecutive pieces; the buffer contents after the whole line are the contents after the last piece run
  from the contents after the one before, and so on back to the launch memory. After each piece the buffers that matter
  hold the reference's stages as functions of the arguments, each written from the previous piece's buffers by that
  piece's own operations, and a buffer no operation of a piece writes keeps its contents. Every weakly fair execution
  terminates with every buffer at the line's fold over the launch memory; read at the two results and the eight
  arguments this is the run stated at the end.
-/
import proofs.«162919_j33122787787017_1_alg».proof.Proof.RefReadPatched
import Idealize.ShloMosaic.Lib.StableHlo.Run

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Operations 1 to 69 of the reference's @main. -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    unary main_arg1 main_v4 ((extractStridedSlice S1x3200000 ![0, 0] · slices_S2x3200000_S1x3200000_0_0) : (⟨S2x3200000, .i32⟩ : BufTy).Contents (Elt F) → (⟨S1x3200000, .i32⟩ : BufTy).Contents (Elt F)),
    reshape main_v4 main_v5 rfl shapeCasts_S1x3200000_S3200000,
    unary main_arg1 main_v6 ((extractStridedSlice S1x3200000 ![1, 0] · slices_S2x3200000_S1x3200000_1_0) : (⟨S2x3200000, .i32⟩ : BufTy).Contents (Elt F) → (⟨S1x3200000, .i32⟩ : BufTy).Contents (Elt F)),
    reshape main_v6 main_v7 rfl shapeCasts_S1x3200000_S3200000,
    nullary main_cst (constant S_ .f32 0x3F800000#32),
    unary main_cst main_v8 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3200000x1 ![0] bcast_S3200000_S3200000x1_0 : (⟨S3200000, .i32⟩ : BufTy).Contents (Elt F) → (⟨S3200000x1, .i32⟩ : BufTy).Contents (Elt F)),
    ternary main_v9 main_v10 main_v8 main_v11 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    unary main_cst_3 main_v17 (broadcastInDim S100000 ![] bcast_S_S100000 : (⟨S_, .f32⟩ : BufTy).Contents (Elt F) → (⟨S100000, .f32⟩ : BufTy).Contents (Elt F)),
    binary main_v11 main_v17 main_v18 (cmpf .ogt : (⟨S100000, .f32⟩ : BufTy).Contents (Elt F) → (⟨S100000, .f32⟩ : BufTy).Contents (Elt F) → (⟨S100000, .i1⟩ : BufTy).Contents (Elt F)),
    nullary main_cst_4 (constant S_ .f32 0x3F800000#32),
    unary main_cst_4 main_v19 (broadcastInDim S100000 ![] bcast_S_S100000 : (⟨S_, .f32⟩ : BufTy).Contents (Elt F) → (⟨S100000, .f32⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v18) (TRef.of (T := ⟨S100000, .f32⟩) main_v19) (TRef.of (T := ⟨S100000, .f32⟩) main_call0_v1) (TRef.of (T := ⟨S100000, .f32⟩) main_v20) select,
    binary main_v16 main_v20 main_v21 (mulf : (⟨S100000, .f32⟩ : BufTy).Contents (Elt F) → (⟨S100000, .f32⟩ : BufTy).Contents (Elt F) → (⟨S100000, .f32⟩ : BufTy).Contents (Elt F)),
    nullary main_cst_6 (constant S_ .f32 0x00000000#32),
    TRef.unary (TRef.of (T := ⟨S_, .f32⟩) main_cst_6) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v13) (TRef.of (T := ⟨S100000, .f32⟩) main_v21) (TRef.of (T := ⟨S100000, .f32⟩) main_call1_v1) (TRef.of (T := ⟨S100000, .f32⟩) main_v22) select,
    nullary main_cst_7 (constant S_ .f32 0x00000000#32),
    unary main_cst_7 main_v23 (broadcastInDim S100000 ![] bcast_S_S100000 : (⟨S_, .f32⟩ : BufTy).Contents (Elt F) → (⟨S100000, .f32⟩ : BufTy).Contents (Elt F)),
    binary main_v11 main_v23 main_v24 (cmpf .ogt : (⟨S100000, .f32⟩ : BufTy).Contents (Elt F) → (⟨S100000, .f32⟩ : BufTy).Contents (Elt F) → (⟨S100000, .i1⟩ : BufTy).Contents (Elt F)),
    nullary main_cst_8 (constant S_ .f32 0x2B8CBCCC#32),
    unary main_cst_8 main_v25 (broadcastInDim S100000 ![] bcast_S_S100000 : (⟨S_, .f32⟩ : BufTy).Contents (Elt F) → (⟨S100000, .f32⟩ : BufTy).Contents (Elt F)),
    binary main_v11 main_v25 main_v26 (maximumf : (⟨S100000, .f32⟩ : BufTy).Contents (Elt F) → (⟨S100000, .f32⟩ : BufTy).Contents (Elt F) → (⟨S100000, .f32⟩ : BufTy).Contents (Elt F)),
    unary main_v26 main_v27 (Host.sqrt : (⟨S100000, .f32⟩ : BufTy).Contents (Elt F) → (⟨S100000, .f32⟩ : BufTy).Contents (Elt F)),
    nullary main_cst_9 (constant S_ .f32 0x3F800000#32),
    unary main_cst_9 main_v28 (broadcastInDim S100000 ![] bcast_S_S100000 : (⟨S_, .f32⟩ : BufTy).Contents (Elt F) → (⟨S100000, .f32⟩ : BufTy).Contents (Elt F)),
    binary main_v28 main_v27 main_v29 (Host.divf : (⟨S100000, .f32⟩ : BufTy).Contents (Elt F) → (⟨S100000, .f32⟩ : BufTy).Contents (Elt F) → (⟨S100000, .f32⟩ : BufTy).Contents (Elt F)),
    nullary main_cst_10 (constant S_ .f32 0x00000000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v24) (TRef.of (T := ⟨S100000, .f32⟩) main_v29) (TRef.of (T := ⟨S100000, .f32⟩) main_call2_v1) (TRef.of (T := ⟨S100000, .f32⟩) main_v30) select,
    nullary main_c (constantI S_ 32 0#32),
    unary main_c main_v31 (broadcastInDim S3200000 ![] bcast_S_S3200000 : (⟨S_, .i32⟩ : BufTy).Contents (Elt F) → (⟨S3200000, .i32⟩ : BufTy).Contents (Elt F)),
    binary main_v5 main_v31 main_v32 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 100000#32),
    unary main_c_11 main_v33 (broadcastInDim S3200000 ![] bcast_S_S3200000 : (⟨S_, .i32⟩ : BufTy).Contents (Elt F) → (⟨S3200000, .i32⟩ : BufTy).Contents (Elt F)),
    binary main_v5 main_v33 main_v34 (addi : (⟨S3200000, .i32⟩ : BufTy).Contents (Elt F) → (⟨S3200000, .i32⟩ : BufTy).Contents (Elt F) → (⟨S3200000, .i32⟩ : BufTy).Contents (Elt F)),
    ternary main_v32 main_v34 main_v5 main_v35 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v35 main_v36 (broadcastInDim S3200000x1 ![0] bcast_S3200000_S3200000x1_0 : (⟨S3200000, .i32⟩ : BufTy).Contents (Elt F) → (⟨S3200000x1, .i32⟩ : BufTy).Contents (Elt F)),
    binary main_v30 main_v36 main_v37 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_12 (constantI S_ 32 0#32),
    unary main_c_12 main_v38 (broadcastInDim S3200000 ![] bcast_S_S3200000 : (⟨S_, .i32⟩ : BufTy).Contents (Elt F) → (⟨S3200000, .i32⟩ : BufTy).Contents (Elt F)),
    binary main_v7 main_v38 main_v39 (cmpi .slt : (⟨S3200000, .i32⟩ : BufTy).Contents (Elt F) → (⟨S3200000, .i32⟩ : BufTy).Contents (Elt F) → (⟨S3200000, .i1⟩ : BufTy).Contents (Elt F)),
    nullary main_c_13 (constantI S_ 32 100000#32),
    unary main_c_13 main_v40 (broadcastInDim S3200000 ![] bcast_S_S3200000 : (⟨S_, .i32⟩ : BufTy).Contents (Elt F) → (⟨S3200000, .i32⟩ : BufTy).Contents (Elt F)),
    binary main_v7 main_v40 main_v41 (addi : (⟨S3200000, .i32⟩ : BufTy).Contents (Elt F) → (⟨S3200000, .i32⟩ : BufTy).Contents (Elt F) → (⟨S3200000, .i32⟩ : BufTy).Contents (Elt F)),
    ternary main_v39 main_v41 main_v7 main_v42 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v42 main_v43 (broadcastInDim S3200000x1 ![0] bcast_S3200000_S3200000x1_0 : (⟨S3200000, .i32⟩ : BufTy).Contents (Elt F) → (⟨S3200000x1, .i32⟩ : BufTy).Contents (Elt F)),
    binary main_v30 main_v43 main_v44 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v37 main_v44 main_v45 (mulf : (⟨S3200000, .f32⟩ : BufTy).Contents (Elt F) → (⟨S3200000, .f32⟩ : BufTy).Contents (Elt F) → (⟨S3200000, .f32⟩ : BufTy).Contents (Elt F)),
    binary main_arg0 main_arg2 main_v46 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)) ]

/-- Operations 70 to 85 of the reference's @main. -/
abbrev opsB : List (HloOp τ sig (Elt F)) :=
  [ nullary main_c_14 (constantI S_ 32 0#32),
    unary main_c_14 main_v47 (broadcastInDim S3200000 ![] bcast_S_S3200000 : (⟨S_, .i32⟩ : BufTy).Contents (Elt F) → (⟨S3200000, .i32⟩ : BufTy).Contents (Elt F)),
    binary main_v1 main_v47 main_v48 (cmpi .slt : (⟨S3200000, .i32⟩ : BufTy).Contents (Elt F) → (⟨S3200000, .i32⟩ : BufTy).Contents (Elt F) → (⟨S3200000, .i1⟩ : BufTy).Contents (Elt F)),
    nullary main_c_15 (constantI S_ 32 100000#32),
    unary main_c_15 main_v49 (broadcastInDim S3200000 ![] bcast_S_S3200000 : (⟨S_, .i32⟩ : BufTy).Contents (Elt F) → (⟨S3200000, .i32⟩ : BufTy).Contents (Elt F)),
    binary main_v1 main_v49 main_v50 (addi : (⟨S3200000, .i32⟩ : BufTy).Contents (Elt F) → (⟨S3200000, .i32⟩ : BufTy).Contents (Elt F) → (⟨S3200000, .i32⟩ : BufTy).Contents (Elt F)),
    ternary main_v48 main_v50 main_v1 main_v51 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v51 main_v52 (broadcastInDim S3200000x1 ![0] bcast_S3200000_S3200000x1_0 : (⟨S3200000, .i32⟩ : BufTy).Contents (Elt F) → (⟨S3200000x1, .i32⟩ : BufTy).Contents (Elt F)),
    binary main_v46 main_v52 main_v53 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    unary main_v45 main_v54 (broadcastInDim S3200000x1 ![0] bcast_S3200000_S3200000x1_0 : (⟨S3200000, .f32⟩ : BufTy).Contents (Elt F) → (⟨S3200000x1, .f32⟩ : BufTy).Contents (Elt F)),
    unary main_v54 main_v55 (broadcastInDim S3200000x32 ![0, 1] bcast_S3200000x1_S3200000x32_0_1 : (⟨S3200000x1, .f32⟩ : BufTy).Contents (Elt F) → (⟨S3200000x32, .f32⟩ : BufTy).Contents (Elt F)),
    binary main_v53 main_v55 main_v56 (mulf : (⟨S3200000x32, .f32⟩ : BufTy).Contents (Elt F) → (⟨S3200000x32, .f32⟩ : BufTy).Contents (Elt F) → (⟨S3200000x32, .f32⟩ : BufTy).Contents (Elt F)),
    nullary main_cst_16 (constant S_ .f32 0x00000000#32),
    unary main_cst_16 main_v57 (broadcastInDim S100000x32 ![] bcast_S_S100000x32 : (⟨S_, .f32⟩ : BufTy).Contents (Elt F) → (⟨S100000x32, .f32⟩ : BufTy).Contents (Elt F)),
    unary main_v3 main_v58 (broadcastInDim S3200000x1 ![0] bcast_S3200000_S3200000x1_0 : (⟨S3200000, .i32⟩ : BufTy).Contents (Elt F) → (⟨S3200000x1, .i32⟩ : BufTy).Contents (Elt F)),
    ternary main_v57 main_v58 main_v56 main_v59 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)) ]

/-- Operations 86 to 90 of the reference's @main. -/
abbrev opsC : List (HloOp τ sig (Elt F)) :=
  [ unary main_arg3 main_v60 (broadcastInDim S1x32 ![1] bcast_S32_S1x32_1 : (⟨S32, .f32⟩ : BufTy).Contents (Elt F) → (⟨S1x32, .f32⟩ : BufTy).Contents (Elt F)),
    unary main_v60 main_v61 (broadcastInDim S100000x32 ![0, 1] bcast_S1x32_S100000x32_0_1 : (⟨S1x32, .f32⟩ : BufTy).Contents (Elt F) → (⟨S100000x32, .f32⟩ : BufTy).Contents (Elt F)),
    binary main_v59 main_v61 main_v62 (addf : (⟨S100000x32, .f32⟩ : BufTy).Contents (Elt F) → (⟨S100000x32, .f32⟩ : BufTy).Contents (Elt F) → (⟨S100000x32, .f32⟩ : BufTy).Contents (Elt F)),
    unary main_v62 main_v63 (Host.tanh : (⟨S100000x32, .f32⟩ : BufTy).Contents (Elt F) → (⟨S100000x32, .f32⟩ : BufTy).Contents (Elt F)),
    binary main_v63 main_arg4 main_v64 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

/-- Operations 91 to 106 of the reference's @main. -/
abbrev opsD : List (HloOp τ sig (Elt F)) :=
  [ nullary main_c_17 (constantI S_ 32 0#32),
    unary main_c_17 main_v65 (broadcastInDim S3200000 ![] bcast_S_S3200000 : (⟨S_, .i32⟩ : BufTy).Contents (Elt F) → (⟨S3200000, .i32⟩ : BufTy).Contents (Elt F)),
    binary main_v1 main_v65 main_v66 (cmpi .slt : (⟨S3200000, .i32⟩ : BufTy).Contents (Elt F) → (⟨S3200000, .i32⟩ : BufTy).Contents (Elt F) → (⟨S3200000, .i1⟩ : BufTy).Contents (Elt F)),
    nullary main_c_18 (constantI S_ 32 100000#32),
    unary main_c_18 main_v67 (broadcastInDim S3200000 ![] bcast_S_S3200000 : (⟨S_, .i32⟩ : BufTy).Contents (Elt F) → (⟨S3200000, .i32⟩ : BufTy).Contents (Elt F)),
    binary main_v1 main_v67 main_v68 (addi : (⟨S3200000, .i32⟩ : BufTy).Contents (Elt F) → (⟨S3200000, .i32⟩ : BufTy).Contents (Elt F) → (⟨S3200000, .i32⟩ : BufTy).Contents (Elt F)),
    ternary main_v66 main_v68 main_v1 main_v69 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v69 main_v70 (broadcastInDim S3200000x1 ![0] bcast_S3200000_S3200000x1_0 : (⟨S3200000, .i32⟩ : BufTy).Contents (Elt F) → (⟨S3200000x1, .i32⟩ : BufTy).Contents (Elt F)),
    binary main_v64 main_v70 main_v71 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    unary main_v45 main_v72 (broadcastInDim S3200000x1 ![0] bcast_S3200000_S3200000x1_0 : (⟨S3200000, .f32⟩ : BufTy).Contents (Elt F) → (⟨S3200000x1, .f32⟩ : BufTy).Contents (Elt F)),
    unary main_v72 main_v73 (broadcastInDim S3200000x32 ![0, 1] bcast_S3200000x1_S3200000x32_0_1 : (⟨S3200000x1, .f32⟩ : BufTy).Contents (Elt F) → (⟨S3200000x32, .f32⟩ : BufTy).Contents (Elt F)),
    binary main_v71 main_v73 main_v74 (mulf : (⟨S3200000x32, .f32⟩ : BufTy).Contents (Elt F) → (⟨S3200000x32, .f32⟩ : BufTy).Contents (Elt F) → (⟨S3200000x32, .f32⟩ : BufTy).Contents (Elt F)),
    nullary main_cst_19 (constant S_ .f32 0x00000000#32),
    unary main_cst_19 main_v75 (broadcastInDim S100000x32 ![] bcast_S_S100000x32 : (⟨S_, .f32⟩ : BufTy).Contents (Elt F) → (⟨S100000x32, .f32⟩ : BufTy).Contents (Elt F)),
    unary main_v3 main_v76 (broadcastInDim S3200000x1 ![0] bcast_S3200000_S3200000x1_0 : (⟨S3200000, .i32⟩ : BufTy).Contents (Elt F) → (⟨S3200000x1, .i32⟩ : BufTy).Contents (Elt F)),
    ternary main_v75 main_v76 main_v74 main_v77 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)) ]

/-- Operations 107 to 110 of the reference's @main. -/
abbrev opsE : List (HloOp τ sig (Elt F)) :=
  [ unary main_arg5 main_v78 (broadcastInDim S1x32 ![1] bcast_S32_S1x32_1 : (⟨S32, .f32⟩ : BufTy).Contents (Elt F) → (⟨S1x32, .f32⟩ : BufTy).Contents (Elt F)),
    unary main_v78 main_v79 (broadcastInDim S100000x32 ![0, 1] bcast_S1x32_S100000x32_0_1 : (⟨S1x32, .f32⟩ : BufTy).Contents (Elt F) → (⟨S100000x32, .f32⟩ : BufTy).Contents (Elt F)),
    binary main_v77 main_v79 main_v80 (addf : (⟨S100000x32, .f32⟩ : BufTy).Contents (Elt F) → (⟨S100000x32, .f32⟩ : BufTy).Contents (Elt F) → (⟨S100000x32, .f32⟩ : BufTy).Contents (Elt F)),
    unary main_v80 main_v81 (Host.tanh : (⟨S100000x32, .f32⟩ : BufTy).Contents (Elt F) → (⟨S100000x32, .f32⟩ : BufTy).Contents (Elt F)) ]

/-- Operations 111 to 114 of the reference's @main. -/
abbrev opsF : List (HloOp τ sig (Elt F)) :=
  [ binary main_v81 main_arg6 main_v82 ((fun l r => Host.dotGeneral dot_S100000x32_S32x20_S100000x20_1_0_0_1_n_n none l r) : (⟨S100000x32, .f32⟩ : BufTy).Contents (Elt F) → (⟨S32x20, .f32⟩ : BufTy).Contents (Elt F) → (⟨S100000x20, .f32⟩ : BufTy).Contents (Elt F)),
    unary main_arg7 main_v83 (broadcastInDim S1x20 ![1] bcast_S20_S1x20_1 : (⟨S20, .f32⟩ : BufTy).Contents (Elt F) → (⟨S1x20, .f32⟩ : BufTy).Contents (Elt F)),
    unary main_v83 main_v84 (broadcastInDim S100000x20 ![0, 1] bcast_S1x20_S100000x20_0_1 : (⟨S1x20, .f32⟩ : BufTy).Contents (Elt F) → (⟨S100000x20, .f32⟩ : BufTy).Contents (Elt F)),
    binary main_v82 main_v84 main_v85 (addf : (⟨S100000x20, .f32⟩ : BufTy).Contents (Elt F) → (⟨S100000x20, .f32⟩ : BufTy).Contents (Elt F) → (⟨S100000x20, .f32⟩ : BufTy).Contents (Elt F)) ]

/-- Operations 115 to 116 of the reference's @main. -/
abbrev opsG : List (HloOp τ sig (Elt F)) :=
  [ TRef.nullary (TRef.of (T := ⟨S_, .f32⟩) main_call3_cst) (constant S_ .f32 0xFF800000#32),
    TRef.binary (TRef.of (T := ⟨S100000x20, .f32⟩) main_v85) (TRef.of (T := ⟨S_, .f32⟩) main_call3_cst) (TRef.of (T := ⟨S100000, .f32⟩) main_call3_v0) (fun x v => Host.reduce FloatOps.maximumf x v reducesTo_S100000x20_S100000_d1 h_S_) ]

/-- Operations 117 to 122 of the reference's @main. -/
abbrev opsH : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x20, .f32⟩) main_call3_v4) (broadcastInDim S100000x20 ![0, 1] bcast_S100000x1_S100000x20_0_1),
    TRef.binary (TRef.of (T := ⟨S100000x20, .f32⟩) main_v85) (TRef.of (T := ⟨S100000x20, .f32⟩) main_call3_v4) (TRef.of (T := ⟨S100000x20, .f32⟩) main_call3_v5) subf ]

/-- Operations 123 to 125 of the reference's @main. -/
abbrev opsI : List (HloOp τ sig (Elt F)) :=
  [ TRef.unary (TRef.of (T := ⟨S100000x20, .f32⟩) main_call3_v5) (TRef.of (T := ⟨S100000x20, .f32⟩) main_call3_v6) Host.exp,
    TRef.nullary (TRef.of (T := ⟨S_, .f32⟩) main_call3_cst_1) (constant S_ .f32 0x00000000#32),
    TRef.binary (TRef.of (T := ⟨S100000x20, .f32⟩) main_call3_v6) (TRef.of (T := ⟨S_, .f32⟩) main_call3_cst_1) (TRef.of (T := ⟨S100000, .f32⟩) main_call3_v7) (fun x v => Host.reduceAdd x v reducesTo_S100000x20_S100000_d1 h_S_) ]

/-- Operations 126 to 129 of the reference's @main. -/
abbrev opsJ : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x20, .f32⟩) main_call3_v10) (broadcastInDim S100000x20 ![0, 1] bcast_S100000x1_S100000x20_0_1),
    TRef.binary (TRef.of (T := ⟨S100000x20, .f32⟩) main_call3_v5) (TRef.of (T := ⟨S100000x20, .f32⟩) main_call3_v10) (TRef.of (T := ⟨S100000x20, .f32⟩) main_v86) subf ]

set_option maxRecDepth 65536 in
/-- The line is its ten pieces in order. -/
theorem ops_eq : (ops : List (HloOp τ sig (Elt F))) = opsA ++ (opsB ++ (opsC ++ (opsD ++ (opsE ++ (opsF ++ (opsG ++ (opsH ++ (opsI ++ (opsJ))))))))) := rfl

/-- A buffer that none of a piece's operations writes keeps its contents over the piece. -/
macro "unwritten " ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem keepA_main_arg0 (W : Valuation τ sig (Elt F)) : after opsA W (Proc.devRef .tc main_arg0) = W (Proc.devRef .tc main_arg0) := by unwritten opsA
theorem keepA_main_arg1 (W : Valuation τ sig (Elt F)) : after opsA W (Proc.devRef .tc main_arg1) = W (Proc.devRef .tc main_arg1) := by unwritten opsA
theorem keepA_main_arg2 (W : Valuation τ sig (Elt F)) : after opsA W (Proc.devRef .tc main_arg2) = W (Proc.devRef .tc main_arg2) := by unwritten opsA
theorem keepA_main_arg3 (W : Valuation τ sig (Elt F)) : after opsA W (Proc.devRef .tc main_arg3) = W (Proc.devRef .tc main_arg3) := by unwritten opsA
theorem keepA_main_arg4 (W : Valuation τ sig (Elt F)) : after opsA W (Proc.devRef .tc main_arg4) = W (Proc.devRef .tc main_arg4) := by unwritten opsA
theorem keepA_main_arg5 (W : Valuation τ sig (Elt F)) : after opsA W (Proc.devRef .tc main_arg5) = W (Proc.devRef .tc main_arg5) := by unwritten opsA
theorem keepA_main_arg6 (W : Valuation τ sig (Elt F)) : after opsA W (Proc.devRef .tc main_arg6) = W (Proc.devRef .tc main_arg6) := by unwritten opsA
theorem keepA_main_arg7 (W : Valuation τ sig (Elt F)) : after opsA W (Proc.devRef .tc main_arg7) = W (Proc.devRef .tc main_arg7) := by unwritten opsA
theorem keepB_main_arg0 (W : Valuation τ sig (Elt F)) : after opsB W (Proc.devRef .tc main_arg0) = W (Proc.devRef .tc main_arg0) := by unwritten opsB
theorem keepB_main_arg1 (W : Valuation τ sig (Elt F)) : after opsB W (Proc.devRef .tc main_arg1) = W (Proc.devRef .tc main_arg1) := by unwritten opsB
theorem keepB_main_arg2 (W : Valuation τ sig (Elt F)) : after opsB W (Proc.devRef .tc main_arg2) = W (Proc.devRef .tc main_arg2) := by unwritten opsB
theorem keepB_main_arg3 (W : Valuation τ sig (Elt F)) : after opsB W (Proc.devRef .tc main_arg3) = W (Proc.devRef .tc main_arg3) := by unwritten opsB
theorem keepB_main_arg4 (W : Valuation τ sig (Elt F)) : after opsB W (Proc.devRef .tc main_arg4) = W (Proc.devRef .tc main_arg4) := by unwritten opsB
theorem keepB_main_arg5 (W : Valuation τ sig (Elt F)) : after opsB W (Proc.devRef .tc main_arg5) = W (Proc.devRef .tc main_arg5) := by unwritten opsB
theorem keepB_main_arg6 (W : Valuation τ sig (Elt F)) : after opsB W (Proc.devRef .tc main_arg6) = W (Proc.devRef .tc main_arg6) := by unwritten opsB
theorem keepB_main_arg7 (W : Valuation τ sig (Elt F)) : after opsB W (Proc.devRef .tc main_arg7) = W (Proc.devRef .tc main_arg7) := by unwritten opsB
theorem keepB_main_v1 (W : Valuation τ sig (Elt F)) : after opsB W (Proc.devRef .tc main_v1) = W (Proc.devRef .tc main_v1) := by unwritten opsB
theorem keepB_main_v3 (W : Valuation τ sig (Elt F)) : after opsB W (Proc.devRef .tc main_v3) = W (Proc.devRef .tc main_v3) := by unwritten opsB
theorem keepB_main_v45 (W : Valuation τ sig (Elt F)) : after opsB W (Proc.devRef .tc main_v45) = W (Proc.devRef .tc main_v45) := by unwritten opsB
theorem keepC_main_arg0 (W : Valuation τ sig (Elt F)) : after opsC W (Proc.devRef .tc main_arg0) = W (Proc.devRef .tc main_arg0) := by unwritten opsC
theorem keepC_main_arg1 (W : Valuation τ sig (Elt F)) : after opsC W (Proc.devRef .tc main_arg1) = W (Proc.devRef .tc main_arg1) := by unwritten opsC
theorem keepC_main_arg2 (W : Valuation τ sig (Elt F)) : after opsC W (Proc.devRef .tc main_arg2) = W (Proc.devRef .tc main_arg2) := by unwritten opsC
theorem keepC_main_arg3 (W : Valuation τ sig (Elt F)) : after opsC W (Proc.devRef .tc main_arg3) = W (Proc.devRef .tc main_arg3) := by unwritten opsC
theorem keepC_main_arg4 (W : Valuation τ sig (Elt F)) : after opsC W (Proc.devRef .tc main_arg4) = W (Proc.devRef .tc main_arg4) := by unwritten opsC
theorem keepC_main_arg5 (W : Valuation τ sig (Elt F)) : after opsC W (Proc.devRef .tc main_arg5) = W (Proc.devRef .tc main_arg5) := by unwritten opsC
theorem keepC_main_arg6 (W : Valuation τ sig (Elt F)) : after opsC W (Proc.devRef .tc main_arg6) = W (Proc.devRef .tc main_arg6) := by unwritten opsC
theorem keepC_main_arg7 (W : Valuation τ sig (Elt F)) : after opsC W (Proc.devRef .tc main_arg7) = W (Proc.devRef .tc main_arg7) := by unwritten opsC
theorem keepC_main_v1 (W : Valuation τ sig (Elt F)) : after opsC W (Proc.devRef .tc main_v1) = W (Proc.devRef .tc main_v1) := by unwritten opsC
theorem keepC_main_v3 (W : Valuation τ sig (Elt F)) : after opsC W (Proc.devRef .tc main_v3) = W (Proc.devRef .tc main_v3) := by unwritten opsC
theorem keepC_main_v45 (W : Valuation τ sig (Elt F)) : after opsC W (Proc.devRef .tc main_v45) = W (Proc.devRef .tc main_v45) := by unwritten opsC
theorem keepD_main_arg0 (W : Valuation τ sig (Elt F)) : after opsD W (Proc.devRef .tc main_arg0) = W (Proc.devRef .tc main_arg0) := by unwritten opsD
theorem keepD_main_arg1 (W : Valuation τ sig (Elt F)) : after opsD W (Proc.devRef .tc main_arg1) = W (Proc.devRef .tc main_arg1) := by unwritten opsD
theorem keepD_main_arg2 (W : Valuation τ sig (Elt F)) : after opsD W (Proc.devRef .tc main_arg2) = W (Proc.devRef .tc main_arg2) := by unwritten opsD
theorem keepD_main_arg3 (W : Valuation τ sig (Elt F)) : after opsD W (Proc.devRef .tc main_arg3) = W (Proc.devRef .tc main_arg3) := by unwritten opsD
theorem keepD_main_arg4 (W : Valuation τ sig (Elt F)) : after opsD W (Proc.devRef .tc main_arg4) = W (Proc.devRef .tc main_arg4) := by unwritten opsD
theorem keepD_main_arg5 (W : Valuation τ sig (Elt F)) : after opsD W (Proc.devRef .tc main_arg5) = W (Proc.devRef .tc main_arg5) := by unwritten opsD
theorem keepD_main_arg6 (W : Valuation τ sig (Elt F)) : after opsD W (Proc.devRef .tc main_arg6) = W (Proc.devRef .tc main_arg6) := by unwritten opsD
theorem keepD_main_arg7 (W : Valuation τ sig (Elt F)) : after opsD W (Proc.devRef .tc main_arg7) = W (Proc.devRef .tc main_arg7) := by unwritten opsD
theorem keepE_main_arg0 (W : Valuation τ sig (Elt F)) : after opsE W (Proc.devRef .tc main_arg0) = W (Proc.devRef .tc main_arg0) := by unwritten opsE
theorem keepE_main_arg1 (W : Valuation τ sig (Elt F)) : after opsE W (Proc.devRef .tc main_arg1) = W (Proc.devRef .tc main_arg1) := by unwritten opsE
theorem keepE_main_arg2 (W : Valuation τ sig (Elt F)) : after opsE W (Proc.devRef .tc main_arg2) = W (Proc.devRef .tc main_arg2) := by unwritten opsE
theorem keepE_main_arg3 (W : Valuation τ sig (Elt F)) : after opsE W (Proc.devRef .tc main_arg3) = W (Proc.devRef .tc main_arg3) := by unwritten opsE
theorem keepE_main_arg4 (W : Valuation τ sig (Elt F)) : after opsE W (Proc.devRef .tc main_arg4) = W (Proc.devRef .tc main_arg4) := by unwritten opsE
theorem keepE_main_arg5 (W : Valuation τ sig (Elt F)) : after opsE W (Proc.devRef .tc main_arg5) = W (Proc.devRef .tc main_arg5) := by unwritten opsE
theorem keepE_main_arg6 (W : Valuation τ sig (Elt F)) : after opsE W (Proc.devRef .tc main_arg6) = W (Proc.devRef .tc main_arg6) := by unwritten opsE
theorem keepE_main_arg7 (W : Valuation τ sig (Elt F)) : after opsE W (Proc.devRef .tc main_arg7) = W (Proc.devRef .tc main_arg7) := by unwritten opsE
theorem keepF_main_arg0 (W : Valuation τ sig (Elt F)) : after opsF W (Proc.devRef .tc main_arg0) = W (Proc.devRef .tc main_arg0) := by unwritten opsF
theorem keepF_main_arg1 (W : Valuation τ sig (Elt F)) : after opsF W (Proc.devRef .tc main_arg1) = W (Proc.devRef .tc main_arg1) := by unwritten opsF
theorem keepF_main_arg2 (W : Valuation τ sig (Elt F)) : after opsF W (Proc.devRef .tc main_arg2) = W (Proc.devRef .tc main_arg2) := by unwritten opsF
theorem keepF_main_arg3 (W : Valuation τ sig (Elt F)) : after opsF W (Proc.devRef .tc main_arg3) = W (Proc.devRef .tc main_arg3) := by unwritten opsF
theorem keepF_main_arg4 (W : Valuation τ sig (Elt F)) : after opsF W (Proc.devRef .tc main_arg4) = W (Proc.devRef .tc main_arg4) := by unwritten opsF
theorem keepF_main_arg5 (W : Valuation τ sig (Elt F)) : after opsF W (Proc.devRef .tc main_arg5) = W (Proc.devRef .tc main_arg5) := by unwritten opsF
theorem keepF_main_arg6 (W : Valuation τ sig (Elt F)) : after opsF W (Proc.devRef .tc main_arg6) = W (Proc.devRef .tc main_arg6) := by unwritten opsF
theorem keepF_main_arg7 (W : Valuation τ sig (Elt F)) : after opsF W (Proc.devRef .tc main_arg7) = W (Proc.devRef .tc main_arg7) := by unwritten opsF
theorem keepF_main_v81 (W : Valuation τ sig (Elt F)) : after opsF W (Proc.devRef .tc main_v81) = W (Proc.devRef .tc main_v81) := by unwritten opsF
theorem keepG_main_arg0 (W : Valuation τ sig (Elt F)) : after opsG W (Proc.devRef .tc main_arg0) = W (Proc.devRef .tc main_arg0) := by unwritten opsG
theorem keepG_main_arg1 (W : Valuation τ sig (Elt F)) : after opsG W (Proc.devRef .tc main_arg1) = W (Proc.devRef .tc main_arg1) := by unwritten opsG
theorem keepG_main_arg2 (W : Valuation τ sig (Elt F)) : after opsG W (Proc.devRef .tc main_arg2) = W (Proc.devRef .tc main_arg2) := by unwritten opsG
theorem keepG_main_arg3 (W : Valuation τ sig (Elt F)) : after opsG W (Proc.devRef .tc main_arg3) = W (Proc.devRef .tc main_arg3) := by unwritten opsG
theorem keepG_main_arg4 (W : Valuation τ sig (Elt F)) : after opsG W (Proc.devRef .tc main_arg4) = W (Proc.devRef .tc main_arg4) := by unwritten opsG
theorem keepG_main_arg5 (W : Valuation τ sig (Elt F)) : after opsG W (Proc.devRef .tc main_arg5) = W (Proc.devRef .tc main_arg5) := by unwritten opsG
theorem keepG_main_arg6 (W : Valuation τ sig (Elt F)) : after opsG W (Proc.devRef .tc main_arg6) = W (Proc.devRef .tc main_arg6) := by unwritten opsG
theorem keepG_main_arg7 (W : Valuation τ sig (Elt F)) : after opsG W (Proc.devRef .tc main_arg7) = W (Proc.devRef .tc main_arg7) := by unwritten opsG
theorem keepG_main_v81 (W : Valuation τ sig (Elt F)) : after opsG W (Proc.devRef .tc main_v81) = W (Proc.devRef .tc main_v81) := by unwritten opsG
theorem keepG_main_v85 (W : Valuation τ sig (Elt F)) : after opsG W (Proc.devRef .tc main_v85) = W (Proc.devRef .tc main_v85) := by unwritten opsG
theorem keepH_main_arg0 (W : Valuation τ sig (Elt F)) : after opsH W (Proc.devRef .tc main_arg0) = W (Proc.devRef .tc main_arg0) := by unwritten opsH
theorem keepH_main_arg1 (W : Valuation τ sig (Elt F)) : after opsH W (Proc.devRef .tc main_arg1) = W (Proc.devRef .tc main_arg1) := by unwritten opsH
theorem keepH_main_arg2 (W : Valuation τ sig (Elt F)) : after opsH W (Proc.devRef .tc main_arg2) = W (Proc.devRef .tc main_arg2) := by unwritten opsH
theorem keepH_main_arg3 (W : Valuation τ sig (Elt F)) : after opsH W (Proc.devRef .tc main_arg3) = W (Proc.devRef .tc main_arg3) := by unwritten opsH
theorem keepH_main_arg4 (W : Valuation τ sig (Elt F)) : after opsH W (Proc.devRef .tc main_arg4) = W (Proc.devRef .tc main_arg4) := by unwritten opsH
theorem keepH_main_arg5 (W : Valuation τ sig (Elt F)) : after opsH W (Proc.devRef .tc main_arg5) = W (Proc.devRef .tc main_arg5) := by unwritten opsH
theorem keepH_main_arg6 (W : Valuation τ sig (Elt F)) : after opsH W (Proc.devRef .tc main_arg6) = W (Proc.devRef .tc main_arg6) := by unwritten opsH
theorem keepH_main_arg7 (W : Valuation τ sig (Elt F)) : after opsH W (Proc.devRef .tc main_arg7) = W (Proc.devRef .tc main_arg7) := by unwritten opsH
theorem keepH_main_v81 (W : Valuation τ sig (Elt F)) : after opsH W (Proc.devRef .tc main_v81) = W (Proc.devRef .tc main_v81) := by unwritten opsH
theorem keepI_main_arg0 (W : Valuation τ sig (Elt F)) : after opsI W (Proc.devRef .tc main_arg0) = W (Proc.devRef .tc main_arg0) := by unwritten opsI
theorem keepI_main_arg1 (W : Valuation τ sig (Elt F)) : after opsI W (Proc.devRef .tc main_arg1) = W (Proc.devRef .tc main_arg1) := by unwritten opsI
theorem keepI_main_arg2 (W : Valuation τ sig (Elt F)) : after opsI W (Proc.devRef .tc main_arg2) = W (Proc.devRef .tc main_arg2) := by unwritten opsI
theorem keepI_main_arg3 (W : Valuation τ sig (Elt F)) : after opsI W (Proc.devRef .tc main_arg3) = W (Proc.devRef .tc main_arg3) := by unwritten opsI
theorem keepI_main_arg4 (W : Valuation τ sig (Elt F)) : after opsI W (Proc.devRef .tc main_arg4) = W (Proc.devRef .tc main_arg4) := by unwritten opsI
theorem keepI_main_arg5 (W : Valuation τ sig (Elt F)) : after opsI W (Proc.devRef .tc main_arg5) = W (Proc.devRef .tc main_arg5) := by unwritten opsI
theorem keepI_main_arg6 (W : Valuation τ sig (Elt F)) : after opsI W (Proc.devRef .tc main_arg6) = W (Proc.devRef .tc main_arg6) := by unwritten opsI
theorem keepI_main_arg7 (W : Valuation τ sig (Elt F)) : after opsI W (Proc.devRef .tc main_arg7) = W (Proc.devRef .tc main_arg7) := by unwritten opsI
theorem keepI_main_v81 (W : Valuation τ sig (Elt F)) : after opsI W (Proc.devRef .tc main_v81) = W (Proc.devRef .tc main_v81) := by unwritten opsI
theorem keepI_main_call3_v5 (W : Valuation τ sig (Elt F)) : after opsI W (Proc.devRef .tc main_call3_v5) = W (Proc.devRef .tc main_call3_v5) := by unwritten opsI
theorem keepJ_main_arg0 (W : Valuation τ sig (Elt F)) : after opsJ W (Proc.devRef .tc main_arg0) = W (Proc.devRef .tc main_arg0) := by unwritten opsJ
theorem keepJ_main_arg1 (W : Valuation τ sig (Elt F)) : after opsJ W (Proc.devRef .tc main_arg1) = W (Proc.devRef .tc main_arg1) := by unwritten opsJ
theorem keepJ_main_arg2 (W : Valuation τ sig (Elt F)) : after opsJ W (Proc.devRef .tc main_arg2) = W (Proc.devRef .tc main_arg2) := by unwritten opsJ
theorem keepJ_main_arg3 (W : Valuation τ sig (Elt F)) : after opsJ W (Proc.devRef .tc main_arg3) = W (Proc.devRef .tc main_arg3) := by unwritten opsJ
theorem keepJ_main_arg4 (W : Valuation τ sig (Elt F)) : after opsJ W (Proc.devRef .tc main_arg4) = W (Proc.devRef .tc main_arg4) := by unwritten opsJ
theorem keepJ_main_arg5 (W : Valuation τ sig (Elt F)) : after opsJ W (Proc.devRef .tc main_arg5) = W (Proc.devRef .tc main_arg5) := by unwritten opsJ
theorem keepJ_main_arg6 (W : Valuation τ sig (Elt F)) : after opsJ W (Proc.devRef .tc main_arg6) = W (Proc.devRef .tc main_arg6) := by unwritten opsJ
theorem keepJ_main_arg7 (W : Valuation τ sig (Elt F)) : after opsJ W (Proc.devRef .tc main_arg7) = W (Proc.devRef .tc main_arg7) := by unwritten opsJ
theorem keepJ_main_v81 (W : Valuation τ sig (Elt F)) : after opsJ W (Proc.devRef .tc main_v81) = W (Proc.devRef .tc main_v81) := by unwritten opsJ

/-! ## A called function's buffers

The log-softmax is an outlined function: its operations read and write their buffers through a transport along the
equation "the buffer's type is the value's type". For each buffer concerned the transport is the identity. -/

/-- Into a buffer and back out is the identity. -/
theorem ofBuf_toBuf {T : BufTy} (x : TRef sig T) (v : T.Contents (Elt F)) : x.ofBuf (x.toBuf v) = v := by
  obtain ⟨r, h, h2, h3⟩ := x
  subst h
  rfl

theorem toBuf_main_v85 (h1 h2 h3) (V : (⟨S100000x20, .f32⟩ : BufTy).Contents (Elt F)) : (TRef.of (T := ⟨S100000x20, .f32⟩) main_v85 h1 h2 h3).toBuf V = V := rfl
theorem toBuf_main_call3_v0 (h1 h2 h3) (V : (⟨S100000, .f32⟩ : BufTy).Contents (Elt F)) : (TRef.of (T := ⟨S100000, .f32⟩) main_call3_v0 h1 h2 h3).toBuf V = V := rfl
theorem toBuf_main_call3_v5 (h1 h2 h3) (V : (⟨S100000x20, .f32⟩ : BufTy).Contents (Elt F)) : (TRef.of (T := ⟨S100000x20, .f32⟩) main_call3_v5 h1 h2 h3).toBuf V = V := rfl
theorem toBuf_main_call3_v7 (h1 h2 h3) (V : (⟨S100000, .f32⟩ : BufTy).Contents (Elt F)) : (TRef.of (T := ⟨S100000, .f32⟩) main_call3_v7 h1 h2 h3).toBuf V = V := rfl
theorem toBuf_main_v86 (h1 h2 h3) (V : (⟨S100000x20, .f32⟩ : BufTy).Contents (Elt F)) : (TRef.of (T := ⟨S100000x20, .f32⟩) main_v86 h1 h2 h3).toBuf V = V := rfl

section Stages

variable (m : (ℓ : Loc nD τ sig) → Buf (Elt F) ℓ) (c : Dev nD)

/-! ## The buffer contents after each piece -/

def WA : Valuation τ sig (Elt F) := after opsA (launchContents m c)
def WB : Valuation τ sig (Elt F) := after opsB (WA m c)
def WC : Valuation τ sig (Elt F) := after opsC (WB m c)
def WD : Valuation τ sig (Elt F) := after opsD (WC m c)
def WE : Valuation τ sig (Elt F) := after opsE (WD m c)
def WF : Valuation τ sig (Elt F) := after opsF (WE m c)
def WG : Valuation τ sig (Elt F) := after opsG (WF m c)
def WH : Valuation τ sig (Elt F) := after opsH (WG m c)
def WI : Valuation τ sig (Elt F) := after opsI (WH m c)
def WJ : Valuation τ sig (Elt F) := after opsJ (WI m c)

/-- After the whole line: after the last piece. -/
theorem after_ops : after ops (launchContents m c) = WJ m c := by
  rw [ops_eq, after_append, after_append, after_append, after_append, after_append, after_append, after_append, after_append, after_append]
  rfl

theorem WA_main_arg0 : WA m c (Proc.devRef .tc main_arg0) = m ((c.tc : Thread nD τ).loc main_arg0) := (keepA_main_arg0 _).trans (rfl)
theorem WA_main_arg1 : WA m c (Proc.devRef .tc main_arg1) = m ((c.tc : Thread nD τ).loc main_arg1) := (keepA_main_arg1 _).trans (rfl)
theorem WA_main_arg2 : WA m c (Proc.devRef .tc main_arg2) = m ((c.tc : Thread nD τ).loc main_arg2) := (keepA_main_arg2 _).trans (rfl)
theorem WA_main_arg3 : WA m c (Proc.devRef .tc main_arg3) = m ((c.tc : Thread nD τ).loc main_arg3) := (keepA_main_arg3 _).trans (rfl)
theorem WA_main_arg4 : WA m c (Proc.devRef .tc main_arg4) = m ((c.tc : Thread nD τ).loc main_arg4) := (keepA_main_arg4 _).trans (rfl)
theorem WA_main_arg5 : WA m c (Proc.devRef .tc main_arg5) = m ((c.tc : Thread nD τ).loc main_arg5) := (keepA_main_arg5 _).trans (rfl)
theorem WA_main_arg6 : WA m c (Proc.devRef .tc main_arg6) = m ((c.tc : Thread nD τ).loc main_arg6) := (keepA_main_arg6 _).trans (rfl)
theorem WA_main_arg7 : WA m c (Proc.devRef .tc main_arg7) = m ((c.tc : Thread nD τ).loc main_arg7) := (keepA_main_arg7 _).trans (rfl)
theorem WB_main_arg0 : WB m c (Proc.devRef .tc main_arg0) = m ((c.tc : Thread nD τ).loc main_arg0) := (keepB_main_arg0 _).trans (WA_main_arg0 m c)
theorem WB_main_arg1 : WB m c (Proc.devRef .tc main_arg1) = m ((c.tc : Thread nD τ).loc main_arg1) := (keepB_main_arg1 _).trans (WA_main_arg1 m c)
theorem WB_main_arg2 : WB m c (Proc.devRef .tc main_arg2) = m ((c.tc : Thread nD τ).loc main_arg2) := (keepB_main_arg2 _).trans (WA_main_arg2 m c)
theorem WB_main_arg3 : WB m c (Proc.devRef .tc main_arg3) = m ((c.tc : Thread nD τ).loc main_arg3) := (keepB_main_arg3 _).trans (WA_main_arg3 m c)
theorem WB_main_arg4 : WB m c (Proc.devRef .tc main_arg4) = m ((c.tc : Thread nD τ).loc main_arg4) := (keepB_main_arg4 _).trans (WA_main_arg4 m c)
theorem WB_main_arg5 : WB m c (Proc.devRef .tc main_arg5) = m ((c.tc : Thread nD τ).loc main_arg5) := (keepB_main_arg5 _).trans (WA_main_arg5 m c)
theorem WB_main_arg6 : WB m c (Proc.devRef .tc main_arg6) = m ((c.tc : Thread nD τ).loc main_arg6) := (keepB_main_arg6 _).trans (WA_main_arg6 m c)
theorem WB_main_arg7 : WB m c (Proc.devRef .tc main_arg7) = m ((c.tc : Thread nD τ).loc main_arg7) := (keepB_main_arg7 _).trans (WA_main_arg7 m c)
theorem WC_main_arg0 : WC m c (Proc.devRef .tc main_arg0) = m ((c.tc : Thread nD τ).loc main_arg0) := (keepC_main_arg0 _).trans (WB_main_arg0 m c)
theorem WC_main_arg1 : WC m c (Proc.devRef .tc main_arg1) = m ((c.tc : Thread nD τ).loc main_arg1) := (keepC_main_arg1 _).trans (WB_main_arg1 m c)
theorem WC_main_arg2 : WC m c (Proc.devRef .tc main_arg2) = m ((c.tc : Thread nD τ).loc main_arg2) := (keepC_main_arg2 _).trans (WB_main_arg2 m c)
theorem WC_main_arg3 : WC m c (Proc.devRef .tc main_arg3) = m ((c.tc : Thread nD τ).loc main_arg3) := (keepC_main_arg3 _).trans (WB_main_arg3 m c)
theorem WC_main_arg4 : WC m c (Proc.devRef .tc main_arg4) = m ((c.tc : Thread nD τ).loc main_arg4) := (keepC_main_arg4 _).trans (WB_main_arg4 m c)
theorem WC_main_arg5 : WC m c (Proc.devRef .tc main_arg5) = m ((c.tc : Thread nD τ).loc main_arg5) := (keepC_main_arg5 _).trans (WB_main_arg5 m c)
theorem WC_main_arg6 : WC m c (Proc.devRef .tc main_arg6) = m ((c.tc : Thread nD τ).loc main_arg6) := (keepC_main_arg6 _).trans (WB_main_arg6 m c)
theorem WC_main_arg7 : WC m c (Proc.devRef .tc main_arg7) = m ((c.tc : Thread nD τ).loc main_arg7) := (keepC_main_arg7 _).trans (WB_main_arg7 m c)
theorem WD_main_arg0 : WD m c (Proc.devRef .tc main_arg0) = m ((c.tc : Thread nD τ).loc main_arg0) := (keepD_main_arg0 _).trans (WC_main_arg0 m c)
theorem WD_main_arg1 : WD m c (Proc.devRef .tc main_arg1) = m ((c.tc : Thread nD τ).loc main_arg1) := (keepD_main_arg1 _).trans (WC_main_arg1 m c)
theorem WD_main_arg2 : WD m c (Proc.devRef .tc main_arg2) = m ((c.tc : Thread nD τ).loc main_arg2) := (keepD_main_arg2 _).trans (WC_main_arg2 m c)
theorem WD_main_arg3 : WD m c (Proc.devRef .tc main_arg3) = m ((c.tc : Thread nD τ).loc main_arg3) := (keepD_main_arg3 _).trans (WC_main_arg3 m c)
theorem WD_main_arg4 : WD m c (Proc.devRef .tc main_arg4) = m ((c.tc : Thread nD τ).loc main_arg4) := (keepD_main_arg4 _).trans (WC_main_arg4 m c)
theorem WD_main_arg5 : WD m c (Proc.devRef .tc main_arg5) = m ((c.tc : Thread nD τ).loc main_arg5) := (keepD_main_arg5 _).trans (WC_main_arg5 m c)
theorem WD_main_arg6 : WD m c (Proc.devRef .tc main_arg6) = m ((c.tc : Thread nD τ).loc main_arg6) := (keepD_main_arg6 _).trans (WC_main_arg6 m c)
theorem WD_main_arg7 : WD m c (Proc.devRef .tc main_arg7) = m ((c.tc : Thread nD τ).loc main_arg7) := (keepD_main_arg7 _).trans (WC_main_arg7 m c)
theorem WE_main_arg0 : WE m c (Proc.devRef .tc main_arg0) = m ((c.tc : Thread nD τ).loc main_arg0) := (keepE_main_arg0 _).trans (WD_main_arg0 m c)
theorem WE_main_arg1 : WE m c (Proc.devRef .tc main_arg1) = m ((c.tc : Thread nD τ).loc main_arg1) := (keepE_main_arg1 _).trans (WD_main_arg1 m c)
theorem WE_main_arg2 : WE m c (Proc.devRef .tc main_arg2) = m ((c.tc : Thread nD τ).loc main_arg2) := (keepE_main_arg2 _).trans (WD_main_arg2 m c)
theorem WE_main_arg3 : WE m c (Proc.devRef .tc main_arg3) = m ((c.tc : Thread nD τ).loc main_arg3) := (keepE_main_arg3 _).trans (WD_main_arg3 m c)
theorem WE_main_arg4 : WE m c (Proc.devRef .tc main_arg4) = m ((c.tc : Thread nD τ).loc main_arg4) := (keepE_main_arg4 _).trans (WD_main_arg4 m c)
theorem WE_main_arg5 : WE m c (Proc.devRef .tc main_arg5) = m ((c.tc : Thread nD τ).loc main_arg5) := (keepE_main_arg5 _).trans (WD_main_arg5 m c)
theorem WE_main_arg6 : WE m c (Proc.devRef .tc main_arg6) = m ((c.tc : Thread nD τ).loc main_arg6) := (keepE_main_arg6 _).trans (WD_main_arg6 m c)
theorem WE_main_arg7 : WE m c (Proc.devRef .tc main_arg7) = m ((c.tc : Thread nD τ).loc main_arg7) := (keepE_main_arg7 _).trans (WD_main_arg7 m c)
theorem WF_main_arg0 : WF m c (Proc.devRef .tc main_arg0) = m ((c.tc : Thread nD τ).loc main_arg0) := (keepF_main_arg0 _).trans (WE_main_arg0 m c)
theorem WF_main_arg1 : WF m c (Proc.devRef .tc main_arg1) = m ((c.tc : Thread nD τ).loc main_arg1) := (keepF_main_arg1 _).trans (WE_main_arg1 m c)
theorem WF_main_arg2 : WF m c (Proc.devRef .tc main_arg2) = m ((c.tc : Thread nD τ).loc main_arg2) := (keepF_main_arg2 _).trans (WE_main_arg2 m c)
theorem WF_main_arg3 : WF m c (Proc.devRef .tc main_arg3) = m ((c.tc : Thread nD τ).loc main_arg3) := (keepF_main_arg3 _).trans (WE_main_arg3 m c)
theorem WF_main_arg4 : WF m c (Proc.devRef .tc main_arg4) = m ((c.tc : Thread nD τ).loc main_arg4) := (keepF_main_arg4 _).trans (WE_main_arg4 m c)
theorem WF_main_arg5 : WF m c (Proc.devRef .tc main_arg5) = m ((c.tc : Thread nD τ).loc main_arg5) := (keepF_main_arg5 _).trans (WE_main_arg5 m c)
theorem WF_main_arg6 : WF m c (Proc.devRef .tc main_arg6) = m ((c.tc : Thread nD τ).loc main_arg6) := (keepF_main_arg6 _).trans (WE_main_arg6 m c)
theorem WF_main_arg7 : WF m c (Proc.devRef .tc main_arg7) = m ((c.tc : Thread nD τ).loc main_arg7) := (keepF_main_arg7 _).trans (WE_main_arg7 m c)
theorem WG_main_arg0 : WG m c (Proc.devRef .tc main_arg0) = m ((c.tc : Thread nD τ).loc main_arg0) := (keepG_main_arg0 _).trans (WF_main_arg0 m c)
theorem WG_main_arg1 : WG m c (Proc.devRef .tc main_arg1) = m ((c.tc : Thread nD τ).loc main_arg1) := (keepG_main_arg1 _).trans (WF_main_arg1 m c)
theorem WG_main_arg2 : WG m c (Proc.devRef .tc main_arg2) = m ((c.tc : Thread nD τ).loc main_arg2) := (keepG_main_arg2 _).trans (WF_main_arg2 m c)
theorem WG_main_arg3 : WG m c (Proc.devRef .tc main_arg3) = m ((c.tc : Thread nD τ).loc main_arg3) := (keepG_main_arg3 _).trans (WF_main_arg3 m c)
theorem WG_main_arg4 : WG m c (Proc.devRef .tc main_arg4) = m ((c.tc : Thread nD τ).loc main_arg4) := (keepG_main_arg4 _).trans (WF_main_arg4 m c)
theorem WG_main_arg5 : WG m c (Proc.devRef .tc main_arg5) = m ((c.tc : Thread nD τ).loc main_arg5) := (keepG_main_arg5 _).trans (WF_main_arg5 m c)
theorem WG_main_arg6 : WG m c (Proc.devRef .tc main_arg6) = m ((c.tc : Thread nD τ).loc main_arg6) := (keepG_main_arg6 _).trans (WF_main_arg6 m c)
theorem WG_main_arg7 : WG m c (Proc.devRef .tc main_arg7) = m ((c.tc : Thread nD τ).loc main_arg7) := (keepG_main_arg7 _).trans (WF_main_arg7 m c)
theorem WH_main_arg0 : WH m c (Proc.devRef .tc main_arg0) = m ((c.tc : Thread nD τ).loc main_arg0) := (keepH_main_arg0 _).trans (WG_main_arg0 m c)
theorem WH_main_arg1 : WH m c (Proc.devRef .tc main_arg1) = m ((c.tc : Thread nD τ).loc main_arg1) := (keepH_main_arg1 _).trans (WG_main_arg1 m c)
theorem WH_main_arg2 : WH m c (Proc.devRef .tc main_arg2) = m ((c.tc : Thread nD τ).loc main_arg2) := (keepH_main_arg2 _).trans (WG_main_arg2 m c)
theorem WH_main_arg3 : WH m c (Proc.devRef .tc main_arg3) = m ((c.tc : Thread nD τ).loc main_arg3) := (keepH_main_arg3 _).trans (WG_main_arg3 m c)
theorem WH_main_arg4 : WH m c (Proc.devRef .tc main_arg4) = m ((c.tc : Thread nD τ).loc main_arg4) := (keepH_main_arg4 _).trans (WG_main_arg4 m c)
theorem WH_main_arg5 : WH m c (Proc.devRef .tc main_arg5) = m ((c.tc : Thread nD τ).loc main_arg5) := (keepH_main_arg5 _).trans (WG_main_arg5 m c)
theorem WH_main_arg6 : WH m c (Proc.devRef .tc main_arg6) = m ((c.tc : Thread nD τ).loc main_arg6) := (keepH_main_arg6 _).trans (WG_main_arg6 m c)
theorem WH_main_arg7 : WH m c (Proc.devRef .tc main_arg7) = m ((c.tc : Thread nD τ).loc main_arg7) := (keepH_main_arg7 _).trans (WG_main_arg7 m c)
theorem WI_main_arg0 : WI m c (Proc.devRef .tc main_arg0) = m ((c.tc : Thread nD τ).loc main_arg0) := (keepI_main_arg0 _).trans (WH_main_arg0 m c)
theorem WI_main_arg1 : WI m c (Proc.devRef .tc main_arg1) = m ((c.tc : Thread nD τ).loc main_arg1) := (keepI_main_arg1 _).trans (WH_main_arg1 m c)
theorem WI_main_arg2 : WI m c (Proc.devRef .tc main_arg2) = m ((c.tc : Thread nD τ).loc main_arg2) := (keepI_main_arg2 _).trans (WH_main_arg2 m c)
theorem WI_main_arg3 : WI m c (Proc.devRef .tc main_arg3) = m ((c.tc : Thread nD τ).loc main_arg3) := (keepI_main_arg3 _).trans (WH_main_arg3 m c)
theorem WI_main_arg4 : WI m c (Proc.devRef .tc main_arg4) = m ((c.tc : Thread nD τ).loc main_arg4) := (keepI_main_arg4 _).trans (WH_main_arg4 m c)
theorem WI_main_arg5 : WI m c (Proc.devRef .tc main_arg5) = m ((c.tc : Thread nD τ).loc main_arg5) := (keepI_main_arg5 _).trans (WH_main_arg5 m c)
theorem WI_main_arg6 : WI m c (Proc.devRef .tc main_arg6) = m ((c.tc : Thread nD τ).loc main_arg6) := (keepI_main_arg6 _).trans (WH_main_arg6 m c)
theorem WI_main_arg7 : WI m c (Proc.devRef .tc main_arg7) = m ((c.tc : Thread nD τ).loc main_arg7) := (keepI_main_arg7 _).trans (WH_main_arg7 m c)
theorem WJ_main_arg0 : WJ m c (Proc.devRef .tc main_arg0) = m ((c.tc : Thread nD τ).loc main_arg0) := (keepJ_main_arg0 _).trans (WI_main_arg0 m c)
theorem WJ_main_arg1 : WJ m c (Proc.devRef .tc main_arg1) = m ((c.tc : Thread nD τ).loc main_arg1) := (keepJ_main_arg1 _).trans (WI_main_arg1 m c)
theorem WJ_main_arg2 : WJ m c (Proc.devRef .tc main_arg2) = m ((c.tc : Thread nD τ).loc main_arg2) := (keepJ_main_arg2 _).trans (WI_main_arg2 m c)
theorem WJ_main_arg3 : WJ m c (Proc.devRef .tc main_arg3) = m ((c.tc : Thread nD τ).loc main_arg3) := (keepJ_main_arg3 _).trans (WI_main_arg3 m c)
theorem WJ_main_arg4 : WJ m c (Proc.devRef .tc main_arg4) = m ((c.tc : Thread nD τ).loc main_arg4) := (keepJ_main_arg4 _).trans (WI_main_arg4 m c)
theorem WJ_main_arg5 : WJ m c (Proc.devRef .tc main_arg5) = m ((c.tc : Thread nD τ).loc main_arg5) := (keepJ_main_arg5 _).trans (WI_main_arg5 m c)
theorem WJ_main_arg6 : WJ m c (Proc.devRef .tc main_arg6) = m ((c.tc : Thread nD τ).loc main_arg6) := (keepJ_main_arg6 _).trans (WI_main_arg6 m c)
theorem WJ_main_arg7 : WJ m c (Proc.devRef .tc main_arg7) = m ((c.tc : Thread nD τ).loc main_arg7) := (keepJ_main_arg7 _).trans (WI_main_arg7 m c)

/-! ## The stages -/

set_option maxHeartbeats 4000000 in
/-- The edges' sources. -/
theorem WA_sources : WA m c (Proc.devRef .tc main_v1) = val_main_v1 (F := F) (m ((c.tc : Thread nD τ).loc main_arg1)) := by
  show after opsA (launchContents m c) (Proc.devRef .tc main_v1) = _
  simp only [opsA]
  after_results_simp
  rfl

set_option maxHeartbeats 4000000 in
/-- The edges' targets. -/
theorem WA_targets : WA m c (Proc.devRef .tc main_v3) = val_main_v3 (F := F) (m ((c.tc : Thread nD τ).loc main_arg1)) := by
  show after opsA (launchContents m c) (Proc.devRef .tc main_v3) = _
  simp only [opsA]
  after_results_simp
  rfl

set_option maxHeartbeats 4000000 in
/-- The edges' weights. -/
theorem WA_weights : WA m c (Proc.devRef .tc main_v45) = val_main_v45 (F := F) (m ((c.tc : Thread nD τ).loc main_arg1)) := by
  show after opsA (launchContents m c) (Proc.devRef .tc main_v45) = _
  simp only [opsA]
  after_results_simp
  rfl

set_option maxHeartbeats 4000000 in
/-- The first matrix product. -/
theorem WA_product : WA m c (Proc.devRef .tc main_v46) = val_main_v46 (F := F) (m ((c.tc : Thread nD τ).loc main_arg0)) (m ((c.tc : Thread nD τ).loc main_arg2)) := by
  show after opsA (launchContents m c) (Proc.devRef .tc main_v46) = _
  simp only [opsA]
  after_results_simp
  rfl

theorem WB_sources : WB m c (Proc.devRef .tc main_v1) = val_main_v1 (F := F) (m ((c.tc : Thread nD τ).loc main_arg1)) := (keepB_main_v1 _).trans (WA_sources m c)
theorem WB_targets : WB m c (Proc.devRef .tc main_v3) = val_main_v3 (F := F) (m ((c.tc : Thread nD τ).loc main_arg1)) := (keepB_main_v3 _).trans (WA_targets m c)
theorem WB_weights : WB m c (Proc.devRef .tc main_v45) = val_main_v45 (F := F) (m ((c.tc : Thread nD τ).loc main_arg1)) := (keepB_main_v45 _).trans (WA_weights m c)
theorem WC_sources : WC m c (Proc.devRef .tc main_v1) = val_main_v1 (F := F) (m ((c.tc : Thread nD τ).loc main_arg1)) := (keepC_main_v1 _).trans (WB_sources m c)
theorem WC_targets : WC m c (Proc.devRef .tc main_v3) = val_main_v3 (F := F) (m ((c.tc : Thread nD τ).loc main_arg1)) := (keepC_main_v3 _).trans (WB_targets m c)
theorem WC_weights : WC m c (Proc.devRef .tc main_v45) = val_main_v45 (F := F) (m ((c.tc : Thread nD τ).loc main_arg1)) := (keepC_main_v45 _).trans (WB_weights m c)

set_option maxHeartbeats 4000000 in
/-- The first aggregate. -/
theorem WB_aggregate : WB m c (Proc.devRef .tc main_v59) = val_main_v59 (F := F) (m ((c.tc : Thread nD τ).loc main_arg0)) (m ((c.tc : Thread nD τ).loc main_arg1)) (m ((c.tc : Thread nD τ).loc main_arg2)) := by
  show after opsB (WA m c) (Proc.devRef .tc main_v59) = _
  simp only [opsB]
  after_results_simp
  rw [WA_sources, WA_targets, WA_weights, WA_product]
  rfl

set_option maxHeartbeats 4000000 in
/-- The second matrix product, of the activated rows. -/
theorem WC_product : WC m c (Proc.devRef .tc main_v64) = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after opsC (WB m c) (Proc.devRef .tc main_v64) = _
  simp only [opsC]
  after_results_simp
  rw [WB_aggregate, WB_main_arg3, WB_main_arg4]
  rfl

set_option maxHeartbeats 4000000 in
/-- The second aggregate. -/
theorem WD_aggregate : WD m c (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after opsD (WC m c) (Proc.devRef .tc main_v77) = _
  simp only [opsD]
  after_results_simp
  rw [WC_product, WC_sources, WC_targets, WC_weights]
  rfl

set_option maxHeartbeats 4000000 in
/-- The activated rows of the second layer. -/
theorem WE_hidden : WE m c (Proc.devRef .tc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsE (WD m c) (Proc.devRef .tc main_v81) = _
  simp only [opsE]
  after_results_simp
  rw [WD_aggregate, WD_main_arg5]
  rfl

set_option maxHeartbeats 4000000 in
/-- The logits. -/
theorem WF_logits : WF m c (Proc.devRef .tc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after opsF (WE m c) (Proc.devRef .tc main_v85) = _
  simp only [opsF]
  after_results_simp
  rw [WE_hidden, WE_main_arg6, WE_main_arg7]
  rfl

theorem WG_logits : WG m c (Proc.devRef .tc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := (keepG_main_v85 _).trans (WF_logits m c)
set_option maxHeartbeats 4000000 in
/-- The rows' maxima. -/
theorem WG_rowMax : WG m c (Proc.devRef .tc main_call3_v0) = val_main_call3_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after opsG (WF m c) (Proc.devRef .tc main_call3_v0) = _
  simp only [opsG]
  after_results_simp
  have e85 : WF m c (Proc.devRef .tc main_v85) = (TRef.of (T := ⟨S100000x20, .f32⟩) main_v85).toBuf (val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
    (WF_logits m c).trans (toBuf_main_v85 (F := F) rfl (by decide) rfl _).symm
  rw [e85]
  simp only [ofBuf_toBuf]
  refine (toBuf_main_call3_v0 (F := F) _ _ _ _).trans ?_
  rfl

set_option maxHeartbeats 4000000 in
/-- The shifted logits. -/
theorem WH_shifted : WH m c (Proc.devRef .tc main_call3_v5) = val_main_call3_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after opsH (WG m c) (Proc.devRef .tc main_call3_v5) = _
  simp only [opsH]
  after_results_simp
  have e85 : WG m c (Proc.devRef .tc main_v85) = (TRef.of (T := ⟨S100000x20, .f32⟩) main_v85).toBuf (val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
    (WG_logits m c).trans (toBuf_main_v85 (F := F) rfl (by decide) rfl _).symm
  have e0 : WG m c (Proc.devRef .tc main_call3_v0) = (TRef.of (T := ⟨S100000, .f32⟩) main_call3_v0).toBuf (val_main_call3_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
    (WG_rowMax m c).trans (toBuf_main_call3_v0 (F := F) rfl (by decide) rfl _).symm
  rw [e85, e0]
  simp only [ofBuf_toBuf]
  refine (toBuf_main_call3_v5 (F := F) _ _ _ _).trans ?_
  rfl

theorem WI_shifted : WI m c (Proc.devRef .tc main_call3_v5) = val_main_call3_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := (keepI_main_call3_v5 _).trans (WH_shifted m c)
set_option maxHeartbeats 4000000 in
/-- The sums of the exponentials of the shifted rows. -/
theorem WI_expSum : WI m c (Proc.devRef .tc main_call3_v7) = val_main_call3_v7 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after opsI (WH m c) (Proc.devRef .tc main_call3_v7) = _
  simp only [opsI]
  after_results_simp
  rw [WH_shifted]
  rfl

set_option maxHeartbeats 4000000 in
/-- The log-softmax. -/
theorem WJ_out : WJ m c (Proc.devRef .tc main_v86) = val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after opsJ (WI m c) (Proc.devRef .tc main_v86) = _
  simp only [opsJ]
  after_results_simp
  rw [WI_shifted, WI_expSum]
  rfl

theorem WJ_hidden : WJ m c (Proc.devRef .tc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (keepJ_main_v81 _).trans ((keepI_main_v81 _).trans ((keepH_main_v81 _).trans ((keepG_main_v81 _).trans ((keepF_main_v81 _).trans (WE_hidden m c)))))

end Stages

/-! ## The run -/

/-- On every device, for any float values, from any memory with zero counters: every weakly fair execution of the
    reference terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v86).trans ((congrFun (after_ops m c) _).trans (WJ_out m c)),
      (h c main_v81).trans ((congrFun (after_ops m c) _).trans (WJ_hidden m c)),
      (h c main_arg0).trans ((congrFun (after_ops m c) _).trans (WJ_main_arg0 m c)),
      (h c main_arg1).trans ((congrFun (after_ops m c) _).trans (WJ_main_arg1 m c)),
      (h c main_arg2).trans ((congrFun (after_ops m c) _).trans (WJ_main_arg2 m c)),
      (h c main_arg3).trans ((congrFun (after_ops m c) _).trans (WJ_main_arg3 m c)),
      (h c main_arg4).trans ((congrFun (after_ops m c) _).trans (WJ_main_arg4 m c)),
      (h c main_arg5).trans ((congrFun (after_ops m c) _).trans (WJ_main_arg5 m c)),
      (h c main_arg6).trans ((congrFun (after_ops m c) _).trans (WJ_main_arg6 m c)),
      (h c main_arg7).trans ((congrFun (after_ops m c) _).trans (WJ_main_arg7 m c))⟩)
    (run_seq scopedRefs_eq scopedSems_eq defs main (fun _ => ops) main_eq (fun _ => ops_sub) m ρ)

end Cert.ReferenceIdeal.Stages

end
-- ==== Proof.Boundaries.lean ====
/-
  What each buffer holds at each boundary between the program's segments.

  Before the first region the host computes, from the edge list, the source and target node of every edge, the in-degree
  of every node (a scatter-add of ones over the targets), its inverse square root where the degree is positive and zero
  elsewhere, and every edge's weight: the product of that quantity at the edge's two ends. Between two regions it gathers
  the previous region's rows at the edges' sources, scales each by the edge's weight and scatter-adds them at the targets
  (`aggregate`). None of these operations is opened here: each boundary's buffers are written as these operations of the
  previous boundary's buffers, and a buffer that no operation of a stretch and no region writes keeps its contents.
-/
import proofs.«162919_j33122787787017_1_alg».proof.Proof.Gen.KernelIdeal.Frame
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.ShloMosaic.StableHlo
open Idealize.SL.Sem

variable {F : FTy → Type} [FloatOps F]

/-! ## The host's operations, named -/

/-- The edges' source nodes: row 0 of the edge list. -/
def sources (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The edges' target nodes: row 1 of the edge list. -/
def targets (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- Every node's in-degree: ones scatter-added at the targets. -/
def degree (e : (⟨S2x3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant S_ .f32 0x00000000#32))
    (broadcastInDim S3200000x1 ![0] bcast_S3200000_S3200000x1_0 (targets e))
    (broadcastInDim S3200000 ![] bcast_S_S3200000 (constant S_ .f32 0x3F800000#32))

/-- The inverse square root of the degree (kept away from zero by a small positive constant) where the degree is
    positive, zero elsewhere. -/
def invSqrtDegree (d : (⟨S100000, .f32⟩ : BufTy).Contents (Elt F)) : (⟨S100000, .f32⟩ : BufTy).Contents (Elt F) :=
  select (cmpf (F := F) (s := S100000) (φ := .f32) .ogt d (broadcastInDim S100000 ![] bcast_S_S100000 (constant S_ .f32 0x00000000#32)))
    (Host.rsqrt (maximumf d (broadcastInDim S100000 ![] bcast_S_S100000 (constant S_ .f32 0x2B8CBCCC#32))))
    (broadcastInDim S100000 ![] bcast_S_S100000 (id (constant S_ .f32 0x00000000#32)))

/-- A vector of node numbers as gather indices: a negative number counts from the end. -/
def wrapped (r : (⟨S3200000, .i32⟩ : BufTy).Contents (Elt F)) : (⟨S3200000x1, .i32⟩ : BufTy).Contents (Elt F) :=
  broadcastInDim S3200000x1 ![0] bcast_S3200000_S3200000x1_0
    (select (cmpi .slt r (broadcastInDim S3200000 ![] bcast_S_S3200000 (constantI S_ 32 0#32)))
      (addi r (broadcastInDim S3200000 ![] bcast_S_S3200000 (constantI S_ 32 100000#32))) r)

/-- Every edge's weight: the per-node quantity at its source times the one at its target. -/
def edgeWeight (s : (⟨S100000, .f32⟩ : BufTy).Contents (Elt F)) (src tgt : (⟨S3200000, .i32⟩ : BufTy).Contents (Elt F)) :
    (⟨S3200000, .f32⟩ : BufTy).Contents (Elt F) :=
  mulf (Host.gather gather_S100000_S3200000x1_S3200000_n_0_n_n_0_1_1 s (wrapped src))
    (Host.gather gather_S100000_S3200000x1_S3200000_n_0_n_n_0_1_1 s (wrapped tgt))

/-- One round of message passing: the rows of `h` at the edges' sources, each scaled by its edge's weight,
    scatter-added at the targets. -/
def aggregate (wgt : (⟨S3200000, .f32⟩ : BufTy).Contents (Elt F)) (src tgt : (⟨S3200000, .i32⟩ : BufTy).Contents (Elt F))
    (h : (⟨S100000x32, .f32⟩ : BufTy).Contents (Elt F)) : (⟨S100000x32, .f32⟩ : BufTy).Contents (Elt F) :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 tgt)
    (mulf (Host.gather gather_S100000x32_S3200000x1_S3200000x32_1_0_n_n_0_1_132 h (wrapped src))
      (broadcastInDim S3200000x32 ![0, 1] bcast_S3200000x1_S3200000x32_0_1
        (broadcastInDim S3200000x1 ![0] bcast_S3200000_S3200000x1_0 wgt)))

variable (m : (ℓ : Loc nD τ sig) → Buf (Elt F) ℓ) (ρ : Dev nD → PrngReg)

/-! ## Buffers a stretch does not write -/

/-- A buffer that none of a stretch's operations writes keeps its contents over the stretch. -/
macro "unwritten " ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem W4_main_v1 (c : Dev nD) : W4 m ρ c (Proc.devRef .tc main_v1) = W3 m ρ c (Proc.devRef .tc main_v1) := W4_of_ne m ρ c main_v1 (by decide)
theorem W5_main_v1 (c : Dev nD) : W5 m ρ c (Proc.devRef .tc main_v1) = W3 m ρ c (Proc.devRef .tc main_v1) :=
  (show StableHlo.after hostOps1 (W4 m ρ c) (Proc.devRef .tc main_v1) = W4 m ρ c (Proc.devRef .tc main_v1) from by unwritten hostOps1).trans (W4_main_v1 m ρ c)
theorem W6_main_v1 (c : Dev nD) : W6 m ρ c (Proc.devRef .tc main_v1) = W3 m ρ c (Proc.devRef .tc main_v1) := (W6_of_ne m ρ c main_v1 (by decide)).trans (W5_main_v1 m ρ c)
theorem W7_main_v1 (c : Dev nD) : W7 m ρ c (Proc.devRef .tc main_v1) = W3 m ρ c (Proc.devRef .tc main_v1) :=
  (show StableHlo.after hostOps2 (W6 m ρ c) (Proc.devRef .tc main_v1) = W6 m ρ c (Proc.devRef .tc main_v1) from by unwritten hostOps2).trans (W6_main_v1 m ρ c)
theorem W4_main_v3 (c : Dev nD) : W4 m ρ c (Proc.devRef .tc main_v3) = W3 m ρ c (Proc.devRef .tc main_v3) := W4_of_ne m ρ c main_v3 (by decide)
theorem W5_main_v3 (c : Dev nD) : W5 m ρ c (Proc.devRef .tc main_v3) = W3 m ρ c (Proc.devRef .tc main_v3) :=
  (show StableHlo.after hostOps1 (W4 m ρ c) (Proc.devRef .tc main_v3) = W4 m ρ c (Proc.devRef .tc main_v3) from by unwritten hostOps1).trans (W4_main_v3 m ρ c)
theorem W6_main_v3 (c : Dev nD) : W6 m ρ c (Proc.devRef .tc main_v3) = W3 m ρ c (Proc.devRef .tc main_v3) := (W6_of_ne m ρ c main_v3 (by decide)).trans (W5_main_v3 m ρ c)
theorem W7_main_v3 (c : Dev nD) : W7 m ρ c (Proc.devRef .tc main_v3) = W3 m ρ c (Proc.devRef .tc main_v3) :=
  (show StableHlo.after hostOps2 (W6 m ρ c) (Proc.devRef .tc main_v3) = W6 m ρ c (Proc.devRef .tc main_v3) from by unwritten hostOps2).trans (W6_main_v3 m ρ c)
theorem W4_main_v28 (c : Dev nD) : W4 m ρ c (Proc.devRef .tc main_v28) = W3 m ρ c (Proc.devRef .tc main_v28) := W4_of_ne m ρ c main_v28 (by decide)
theorem W5_main_v28 (c : Dev nD) : W5 m ρ c (Proc.devRef .tc main_v28) = W3 m ρ c (Proc.devRef .tc main_v28) :=
  (show StableHlo.after hostOps1 (W4 m ρ c) (Proc.devRef .tc main_v28) = W4 m ρ c (Proc.devRef .tc main_v28) from by unwritten hostOps1).trans (W4_main_v28 m ρ c)
theorem W6_main_v28 (c : Dev nD) : W6 m ρ c (Proc.devRef .tc main_v28) = W3 m ρ c (Proc.devRef .tc main_v28) := (W6_of_ne m ρ c main_v28 (by decide)).trans (W5_main_v28 m ρ c)
theorem W7_main_v28 (c : Dev nD) : W7 m ρ c (Proc.devRef .tc main_v28) = W3 m ρ c (Proc.devRef .tc main_v28) :=
  (show StableHlo.after hostOps2 (W6 m ρ c) (Proc.devRef .tc main_v28) = W6 m ρ c (Proc.devRef .tc main_v28) from by unwritten hostOps2).trans (W6_main_v28 m ρ c)
theorem W4_main_arg3 (c : Dev nD) : W4 m ρ c (Proc.devRef .tc main_arg3) = W3 m ρ c (Proc.devRef .tc main_arg3) := W4_of_ne m ρ c main_arg3 (by decide)
theorem W5_main_arg3 (c : Dev nD) : W5 m ρ c (Proc.devRef .tc main_arg3) = W3 m ρ c (Proc.devRef .tc main_arg3) :=
  (show StableHlo.after hostOps1 (W4 m ρ c) (Proc.devRef .tc main_arg3) = W4 m ρ c (Proc.devRef .tc main_arg3) from by unwritten hostOps1).trans (W4_main_arg3 m ρ c)
theorem W6_main_arg3 (c : Dev nD) : W6 m ρ c (Proc.devRef .tc main_arg3) = W3 m ρ c (Proc.devRef .tc main_arg3) := (W6_of_ne m ρ c main_arg3 (by decide)).trans (W5_main_arg3 m ρ c)
theorem W7_main_arg3 (c : Dev nD) : W7 m ρ c (Proc.devRef .tc main_arg3) = W3 m ρ c (Proc.devRef .tc main_arg3) :=
  (show StableHlo.after hostOps2 (W6 m ρ c) (Proc.devRef .tc main_arg3) = W6 m ρ c (Proc.devRef .tc main_arg3) from by unwritten hostOps2).trans (W6_main_arg3 m ρ c)
theorem W4_main_arg4 (c : Dev nD) : W4 m ρ c (Proc.devRef .tc main_arg4) = W3 m ρ c (Proc.devRef .tc main_arg4) := W4_of_ne m ρ c main_arg4 (by decide)
theorem W5_main_arg4 (c : Dev nD) : W5 m ρ c (Proc.devRef .tc main_arg4) = W3 m ρ c (Proc.devRef .tc main_arg4) :=
  (show StableHlo.after hostOps1 (W4 m ρ c) (Proc.devRef .tc main_arg4) = W4 m ρ c (Proc.devRef .tc main_arg4) from by unwritten hostOps1).trans (W4_main_arg4 m ρ c)
theorem W4_main_arg5 (c : Dev nD) : W4 m ρ c (Proc.devRef .tc main_arg5) = W3 m ρ c (Proc.devRef .tc main_arg5) := W4_of_ne m ρ c main_arg5 (by decide)
theorem W5_main_arg5 (c : Dev nD) : W5 m ρ c (Proc.devRef .tc main_arg5) = W3 m ρ c (Proc.devRef .tc main_arg5) :=
  (show StableHlo.after hostOps1 (W4 m ρ c) (Proc.devRef .tc main_arg5) = W4 m ρ c (Proc.devRef .tc main_arg5) from by unwritten hostOps1).trans (W4_main_arg5 m ρ c)
theorem W6_main_arg5 (c : Dev nD) : W6 m ρ c (Proc.devRef .tc main_arg5) = W3 m ρ c (Proc.devRef .tc main_arg5) := (W6_of_ne m ρ c main_arg5 (by decide)).trans (W5_main_arg5 m ρ c)
theorem W7_main_arg5 (c : Dev nD) : W7 m ρ c (Proc.devRef .tc main_arg5) = W3 m ρ c (Proc.devRef .tc main_arg5) :=
  (show StableHlo.after hostOps2 (W6 m ρ c) (Proc.devRef .tc main_arg5) = W6 m ρ c (Proc.devRef .tc main_arg5) from by unwritten hostOps2).trans (W6_main_arg5 m ρ c)
theorem W4_main_arg6 (c : Dev nD) : W4 m ρ c (Proc.devRef .tc main_arg6) = W3 m ρ c (Proc.devRef .tc main_arg6) := W4_of_ne m ρ c main_arg6 (by decide)
theorem W5_main_arg6 (c : Dev nD) : W5 m ρ c (Proc.devRef .tc main_arg6) = W3 m ρ c (Proc.devRef .tc main_arg6) :=
  (show StableHlo.after hostOps1 (W4 m ρ c) (Proc.devRef .tc main_arg6) = W4 m ρ c (Proc.devRef .tc main_arg6) from by unwritten hostOps1).trans (W4_main_arg6 m ρ c)
theorem W6_main_arg6 (c : Dev nD) : W6 m ρ c (Proc.devRef .tc main_arg6) = W3 m ρ c (Proc.devRef .tc main_arg6) := (W6_of_ne m ρ c main_arg6 (by decide)).trans (W5_main_arg6 m ρ c)
theorem W7_main_arg6 (c : Dev nD) : W7 m ρ c (Proc.devRef .tc main_arg6) = W3 m ρ c (Proc.devRef .tc main_arg6) :=
  (show StableHlo.after hostOps2 (W6 m ρ c) (Proc.devRef .tc main_arg6) = W6 m ρ c (Proc.devRef .tc main_arg6) from by unwritten hostOps2).trans (W6_main_arg6 m ρ c)
theorem W4_main_arg7 (c : Dev nD) : W4 m ρ c (Proc.devRef .tc main_arg7) = W3 m ρ c (Proc.devRef .tc main_arg7) := W4_of_ne m ρ c main_arg7 (by decide)
theorem W5_main_arg7 (c : Dev nD) : W5 m ρ c (Proc.devRef .tc main_arg7) = W3 m ρ c (Proc.devRef .tc main_arg7) :=
  (show StableHlo.after hostOps1 (W4 m ρ c) (Proc.devRef .tc main_arg7) = W4 m ρ c (Proc.devRef .tc main_arg7) from by unwritten hostOps1).trans (W4_main_arg7 m ρ c)
theorem W6_main_arg7 (c : Dev nD) : W6 m ρ c (Proc.devRef .tc main_arg7) = W3 m ρ c (Proc.devRef .tc main_arg7) := (W6_of_ne m ρ c main_arg7 (by decide)).trans (W5_main_arg7 m ρ c)
theorem W7_main_arg7 (c : Dev nD) : W7 m ρ c (Proc.devRef .tc main_arg7) = W3 m ρ c (Proc.devRef .tc main_arg7) :=
  (show StableHlo.after hostOps2 (W6 m ρ c) (Proc.devRef .tc main_arg7) = W6 m ρ c (Proc.devRef .tc main_arg7) from by unwritten hostOps2).trans (W6_main_arg7 m ρ c)
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by unwritten hostOps0_2
    _ = W1 m ρ c (Proc.devRef .tc main_arg6) := by unwritten hostOps0_1
    _ = W0 m ρ c (Proc.devRef .tc main_arg6) := by unwritten hostOps0
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by unwritten hostOps0_2
    _ = W1 m ρ c (Proc.devRef .tc main_arg7) := by unwritten hostOps0_1
    _ = W0 m ρ c (Proc.devRef .tc main_arg7) := by unwritten hostOps0
    _ = m ((c : Thread nD τ).loc main_arg7) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by unwritten hostOps0_2
    _ = W1 m ρ c (Proc.devRef .tc main_arg1) := by unwritten hostOps0_1
    _ = W0 m ρ c (Proc.devRef .tc main_arg1) := by unwritten hostOps0
    _ = m ((c : Thread nD τ).loc main_arg1) := rfl

/-! ## Before the first region -/

theorem W3_sources (c : Dev nD) : W3 m ρ c (Proc.devRef .tc main_v1) = sources (m ((c : Thread nD τ).loc main_arg1)) := by
  show StableHlo.after hostOps0_2 (StableHlo.after hostOps0_1 (StableHlo.after hostOps0 (W0 m ρ c))) (Proc.devRef .tc main_v1) = _
  simp only [hostOps0, hostOps0_1, hostOps0_2]
  after_results_simp
  rfl

theorem W3_targets (c : Dev nD) : W3 m ρ c (Proc.devRef .tc main_v3) = targets (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp
  rfl

theorem W3_weights (c : Dev nD) : W3 m ρ c (Proc.devRef .tc main_v28)
    = edgeWeight (invSqrtDegree (degree (m ((c : Thread nD τ).loc main_arg1))))
        (sources (m ((c : Thread nD τ).loc main_arg1))) (targets (m ((c : Thread nD τ).loc main_arg1))) := by
  show StableHlo.after hostOps0_2 (StableHlo.after hostOps0_1 (StableHlo.after hostOps0 (W0 m ρ c))) (Proc.devRef .tc main_v28) = _
  simp only [hostOps0, hostOps0_1, hostOps0_2]
  after_results_simp
  rfl

/-! ## Between the regions -/

theorem W5_aggregate (c : Dev nD) : W5 m ρ c (Proc.devRef .tc main_v42)
    = aggregate (W4 m ρ c (Proc.devRef .tc main_v28)) (W4 m ρ c (Proc.devRef .tc main_v1)) (W4 m ρ c (Proc.devRef .tc main_v3))
        (W4 m ρ c (Proc.devRef .tc main_v29)) := by
  show StableHlo.after hostOps1 (W4 m ρ c) (Proc.devRef .tc main_v42) = _
  simp only [hostOps1]
  after_results_simp
  rfl

theorem W5_bias (c : Dev nD) : W5 m ρ c (Proc.devRef .tc main_v43)
    = shapeCast _ (W4 m ρ c (Proc.devRef .tc main_arg3)) shapeCasts_S32_S1x32 := by
  show StableHlo.after hostOps1 (W4 m ρ c) (Proc.devRef .tc main_v43) = _
  simp only [hostOps1]
  after_results_simp
  rfl

theorem W7_aggregate (c : Dev nD) : W7 m ρ c (Proc.devRef .tc main_v57)
    = aggregate (W6 m ρ c (Proc.devRef .tc main_v28)) (W6 m ρ c (Proc.devRef .tc main_v1)) (W6 m ρ c (Proc.devRef .tc main_v3))
        (W6 m ρ c (Proc.devRef .tc main_v44)) := by
  show StableHlo.after hostOps2 (W6 m ρ c) (Proc.devRef .tc main_v57) = _
  simp only [hostOps2]
  after_results_simp
  rfl

theorem W7_bias (c : Dev nD) : W7 m ρ c (Proc.devRef .tc main_v58)
    = shapeCast _ (W6 m ρ c (Proc.devRef .tc main_arg5)) shapeCasts_S32_S1x32 := by
  show StableHlo.after hostOps2 (W6 m ρ c) (Proc.devRef .tc main_v58) = _
  simp only [hostOps2]
  after_results_simp
  rfl

theorem W7_headBias (c : Dev nD) : W7 m ρ c (Proc.devRef .tc main_v59)
    = shapeCast _ (W6 m ρ c (Proc.devRef .tc main_arg7)) shapeCasts_S20_S1x20 := by
  show StableHlo.after hostOps2 (W6 m ρ c) (Proc.devRef .tc main_v59) = _
  simp only [hostOps2]
  after_results_simp
  rfl

end Cert.KernelIdeal.Boundaries

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.Spec.lean ====
/-
  The mathematics both programs compute, stated once over the extended reals, with no program in sight.

  A graph-convolution layer multiplies the node features by a weight matrix (`dot`: one entry of a matrix product,
  the sum over the contracted coordinate of the products), gathers and scatters along the edges (that part is the
  same text in both programs and is never opened), adds a bias and applies the hyperbolic tangent (`act`). The head
  is a row-wise log-softmax: from every entry of a row subtract the row's maximum (`rowMax`, the maximum folded from
  minus infinity), then subtract the logarithm of the sum of the exponentials of the shifted row (`logSoftmax`).
-/
import Idealize.ShloMosaic.PureOps.Ideal

noncomputable section

open scoped BigOperators

namespace Cert.Spec

open Idealize.ShloMosaic

/-- One entry of a matrix product: the sum over the contracted coordinate of the products of a row and a column. -/
def dot {K : ℕ} (x w : Fin K → EReal) : EReal := ∑ k : Fin K, x k * w k

/-- A layer's activation: the hyperbolic tangent of the aggregated value plus the bias. -/
def act (a b : EReal) : EReal := Ideal.tanh (a + b)

/-- The maximum of a row, folded from minus infinity (the f32 pattern of minus infinity read as an extended real). -/
def rowMax {n : ℕ} (z : Fin n → EReal) : EReal :=
  (Finset.univ : Finset (Fin n)).fold max (Ideal.ofBits .f32 0xFF800000#32) z

/-- The log-softmax of a row at column `c`: the entry minus the row's maximum, minus the logarithm of the sum of the
    exponentials of the row so shifted. -/
def logSoftmax {n : ℕ} (z : Fin n → EReal) (c : Fin n) : EReal :=
  (z c - rowMax z) - Ideal.log (∑ c' : Fin n, Ideal.exp (z c' - rowMax z))

end Cert.Spec

end
-- ==== Proof.FirstProduct.lean ====
/-
  The first dense stage: the node features times the first weight matrix, computed in row blocks.

  The grid has twenty points; point `t` reads rows `5000·t … 5000·t + 4999` of the features (all 128 columns) and the
  whole 128 × 32 weight matrix, and writes the same rows of the 100000 × 32 result. Inside a block the matrix unit's
  product into a zero accumulator is, entry by entry, the sum over the 128 contracted coordinates of the products (the
  change of float format on the way in is the identity on the extended reals). Since every row of the result lies in
  exactly one block, the array after the region holds, at row `r` and column `q`, the sum over `k` of
  `x (r, k) · w (k, q)`, for whatever contents the region finds in its operands.
-/
import proofs.«162919_j33122787787017_1_alg».proof.Proof.Gen.KernelIdeal.Frame
import proofs.«162919_j33122787787017_1_alg».proof.Proof.LibPlainMatmul
import proofs.«162919_j33122787787017_1_alg».proof.Proof.Spec
import Idealize.ShloMosaic.Lib.Pipeline.Value
import Idealize.ShloMosaic.Lib.ValueIdx

set_option maxRecDepth 16384

noncomputable section

namespace Cert.KernelIdeal.FirstProduct

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

/-- One block's product at row `p` and column `q` of the block: the sum over the contracted coordinate. -/
theorem block_apply (x0 : Vec Ideal S5000x128 .f32) (x1 : Vec Ideal S128x32 .f32) (p : Fin 5000) (q : Fin 32) :
    k0_pay1 (F := Ideal) x0 x1 (ix2 p q) = Cert.Spec.dot (fun k : Fin 128 => x0 (ix2 p k)) (fun k : Fin 128 => x1 (ix2 k q)) := by
  unfold k0_pay1
  exact Cert.LibPlainMatmul.matmul_zero_apply dot_S5000x128_S128x32_S5000x32_1_0_0_1_n_n rfl rfl rfl rfl rfl rfl none _ _ p q

theorem hz : (![0, 0] : Fin 2 → Nat) = fun _ => 0 := funext fun a => by fin_cases a <;> rfl

/-- The whole product as one function of the two operand arrays as the region finds them. -/
def G (c : Dev nD) : S100000x32.Idx → EReal := fun i =>
  Cert.Spec.dot (fun k : Fin 128 => (V c main_arg0 : S100000x128.Idx → EReal) (ix2 ⟨(i 0).val, idx2_lt0 i⟩ k))
    (fun k : Fin 128 => (V c main_arg2 : S128x32.Idx → EReal) (ix2 k ⟨(i 1).val, idx2_lt1 i⟩))

/-- The block index maps over the grid: the feature block and the result block move together down the rows, nothing
    else moves. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every one of the twenty row blocks is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the whole product. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x32) hz]
  obtain ⟨e0, e1, e2, e3, e4, e5⟩ := idx_facts t
  funext j
  obtain ⟨p, q, rfl⟩ : ∃ (p : Fin 5000) (q : Fin 32), j = ix2 p q := ⟨j 0, j 1, eq_ix2 j⟩
  show k0_pay1 (F := Ideal) (iblk0 V c 0 t) (iblk0 V c 1 t) (ix2 p q) = G V c (((cfg0.win 2).blk t).view.emb (ix2 p q))
  refine (block_apply (iblk0 V c 0 t) (iblk0 V c 1 t) p q).trans ?_
  unfold G
  refine congrArg₂ Cert.Spec.dot (funext fun k => ?_) (funext fun k => ?_)
  · show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_arg2 (((cfg0.win 1).blk t).view.emb (ix2 k q)) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 32 + 1 * q.val = win0_2.index t (1 : Fin 2) * 32 + 1 * q.val; omega

/-- An index of the result array is in point `t`'s block iff each coordinate is in the block's range on its axis. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v29).slice (win0_2.rect t)).set ↔ _
  rw [View.set_slice_whole, Rect.mem_set_unit]
  exact Iff.rfl

/-- Every index of the result lies in some point's block: the row's block is the row divided by 5000. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- The result array after the region, whatever the region found in its operands: the whole product. -/
theorem final (c : Dev nD) : (dat0 (F := Ideal) V c).arrAt 2 cfg0.N = G V c :=
  (dat0 V c).arrAt_eq_of_cover 2 (G V c) (fun t _ => flushed_eq V c t) (cover)

/-- Read at row `r` and column `q`. -/
theorem final_apply (c : Dev nD) (r : Fin 100000) (q : Fin 32) :
    (dat0 (F := Ideal) V c).arrAt 2 cfg0.N (ix2 r q)
      = Cert.Spec.dot (fun k : Fin 128 => (V c main_arg0 : S100000x128.Idx → EReal) (ix2 r k))
          (fun k : Fin 128 => (V c main_arg2 : S128x32.Idx → EReal) (ix2 k q)) := by
  rw [final]; rfl

end Cert.KernelIdeal.FirstProduct

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.MiddleLayer.lean ====
/-
  The second dense stage: bias, hyperbolic tangent, then the product with the second weight matrix, in row blocks.

  Point `t` of the grid reads rows `5000·t … 5000·t + 4999` of the aggregated features (32 columns), the bias as a
  1 × 32 row and the whole 32 × 32 weight matrix, and writes the same rows of the 100000 × 32 result. Inside a block the
  bias row is broadcast down the rows and added, the hyperbolic tangent is applied entry by entry, and the matrix unit's
  product into a zero accumulator is the sum over the 32 contracted coordinates. So the array after the region holds, at
  row `r` and column `q`, the sum over `k` of `tanh (a (r, k) + b (0, k)) · w (k, q)`, for whatever the region finds in
  its operands.
-/
import proofs.«162919_j33122787787017_1_alg».proof.Proof.Gen.KernelIdeal.Frame
import proofs.«162919_j33122787787017_1_alg».proof.Proof.LibPlainMatmul
import proofs.«162919_j33122787787017_1_alg».proof.Proof.LibRows
import proofs.«162919_j33122787787017_1_alg».proof.Proof.Spec
import Idealize.ShloMosaic.Lib.Pipeline.Value
import Idealize.ShloMosaic.Lib.ValueIdx

set_option maxRecDepth 16384

noncomputable section

namespace Cert.KernelIdeal.MiddleLayer

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

/-- The activated entry of a block: the bias row is read at the entry's column. -/
theorem activated_apply (x0 : Vec Ideal S5000x32 .f32) (x1 : Vec Ideal S1x32 .f32) (p : Fin 5000) (k : Fin 32) :
    (tanh (F := Ideal) (addf (shapeCast S5000x32 x0 shapeCasts_S5000x32_S5000x32)
      (broadcastTo S5000x32 (shapeCast S1x32 x1 shapeCasts_S1x32_S1x32) broadcasts_S1x32_S5000x32)) : FVec Ideal S5000x32 .f32) (ix2 p k)
      = Cert.Spec.act (x0 (ix2 p k)) (x1 (ix2 0 k)) := by
  unfold Cert.Spec.act
  show Ideal.tanh (shapeCast S5000x32 x0 shapeCasts_S5000x32_S5000x32 (ix2 p k)
    + broadcastTo S5000x32 (shapeCast S1x32 x1 shapeCasts_S1x32_S1x32) broadcasts_S1x32_S5000x32 (ix2 p k)) = _
  rw [Cert.Rows.bcast_row (by decide), shapeCast_self, shapeCast_self]

/-- One block's result at row `p` and column `q` of the block. -/
theorem block_apply (x0 : Vec Ideal S5000x32 .f32) (x1 : Vec Ideal S1x32 .f32) (x2 : Vec Ideal S32x32 .f32) (p : Fin 5000) (q : Fin 32) :
    k1_pay1 (F := Ideal) x0 x1 x2 (ix2 p q)
      = Cert.Spec.dot (fun k : Fin 32 => Cert.Spec.act (x0 (ix2 p k)) (x1 (ix2 0 k))) (fun k : Fin 32 => x2 (ix2 k q)) := by
  unfold k1_pay1
  refine (Cert.LibPlainMatmul.matmul_zero_apply dot_S5000x32_S32x32_S5000x32_1_0_0_1_n_n rfl rfl rfl rfl rfl rfl none _ _ p q).trans ?_
  unfold Cert.Spec.dot
  exact Finset.sum_congr rfl fun k _ => congrArg (· * x2 (ix2 k q)) (activated_apply x0 x1 p k)

theorem hz : (![0, 0] : Fin 2 → Nat) = fun _ => 0 := funext fun a => by fin_cases a <;> rfl

/-- The whole result as one function of the three operand arrays as the region finds them. -/
def G (c : Dev nD) : S100000x32.Idx → EReal := fun i =>
  Cert.Spec.dot (fun k : Fin 32 => Cert.Spec.act ((V c main_v42 : S100000x32.Idx → EReal) (ix2 ⟨(i 0).val, idx2_lt0 i⟩ k))
      ((V c main_v43 : S1x32.Idx → EReal) (ix2 0 k)))
    (fun k : Fin 32 => (V c main_arg4 : S32x32.Idx → EReal) (ix2 k ⟨(i 1).val, idx2_lt1 i⟩))

/-- The block index maps over the grid: the aggregated block and the result block move together down the rows, nothing
    else moves. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every one of the twenty row blocks is some point's. -/
theorem idx_onto : ∀ q0 : Fin 20, ∃ t : Fin cfg1.N, win1_3.index t = ![q0.val, 0] :=
  (by decide +kernel : ∀ q0 : Fin 20, ∃ t : Fin grid1.N, win1_3.index t = ![q0.val, 0])

/-- What point `t` writes back is block `t` of the whole result. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x32) hz, View.ld_unit_zero (S := S1x32) hz, View.ld_unit_zero (S := S32x32) hz]
  obtain ⟨e0, e1, e2, e3, e4, e5, e6, e7⟩ := idx_facts t
  funext j
  obtain ⟨p, q, rfl⟩ : ∃ (p : Fin 5000) (q : Fin 32), j = ix2 p q := ⟨j 0, j 1, eq_ix2 j⟩
  show k1_pay1 (F := Ideal) (iblk1 V c 0 t) (iblk1 V c 1 t) (iblk1 V c 2 t) (ix2 p q) = G V c (((cfg1.win 3).blk t).view.emb (ix2 p q))
  refine (block_apply (iblk1 V c 0 t) (iblk1 V c 1 t) (iblk1 V c 2 t) p q).trans ?_
  unfold G
  refine congrArg₂ Cert.Spec.dot (funext fun k => congrArg₂ Cert.Spec.act ?_ ?_) (funext fun k => ?_)
  · show V c main_v42 (((cfg1.win 0).blk t).view.emb (ix2 p k)) = V c main_v42 _
    refine congrArg (V c main_v42) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 32 + 1 * k.val = k.val; omega
  · show V c main_v43 (((cfg1.win 1).blk t).view.emb (ix2 0 k)) = V c main_v43 _
    refine congrArg (V c main_v43) (funext fun a => Fin.ext ?_)
    match a with
    | ⟨0, _⟩ => show win1_1.index t (0 : Fin 2) * 1 + 1 * 0 = 0; omega
    | ⟨1, _⟩ => show win1_1.index t (1 : Fin 2) * 32 + 1 * k.val = k.val; omega
  · show V c main_arg4 (((cfg1.win 2).blk t).view.emb (ix2 k q)) = V c main_arg4 _
    refine congrArg (V c main_arg4) (funext fun a => Fin.ext ?_)
    match a with
    | ⟨0, _⟩ => show win1_2.index t (0 : Fin 2) * 32 + 1 * k.val = k.val; omega
    | ⟨1, _⟩ => show win1_2.index t (1 : Fin 2) * 32 + 1 * q.val = win1_3.index t (1 : Fin 2) * 32 + 1 * q.val; omega

/-- An index of the result array is in point `t`'s block iff each coordinate is in the block's range on its axis. -/
theorem mem_blk (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v44).slice (win1_3.rect t)).set ↔ _
  rw [View.set_slice_whole, Rect.mem_set_unit]
  exact Iff.rfl

/-- Every index of the result lies in some point's block: the row's block is the row divided by 5000. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- The result array after the region, whatever the region found in its operands. -/
theorem final (c : Dev nD) : (dat1 (F := Ideal) V c).arrAt 3 cfg1.N = G V c :=
  (dat1 V c).arrAt_eq_of_cover 3 (G V c) (fun t _ => flushed_eq V c t) (cover)

/-- Read at row `r` and column `q`. -/
theorem final_apply (c : Dev nD) (r : Fin 100000) (q : Fin 32) :
    (dat1 (F := Ideal) V c).arrAt 3 cfg1.N (ix2 r q)
      = Cert.Spec.dot (fun k : Fin 32 => Cert.Spec.act ((V c main_v42 : S100000x32.Idx → EReal) (ix2 r k))
            ((V c main_v43 : S1x32.Idx → EReal) (ix2 0 k)))
          (fun k : Fin 32 => (V c main_arg4 : S32x32.Idx → EReal) (ix2 k q)) := by
  rw [final]; rfl

end Cert.KernelIdeal.MiddleLayer

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«162919_j33122787787017_1_alg».proof.Proof.LibRows
import proofs.«162919_j33122787787017_1_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.Head.lean ====
/-
  The head: the second layer's activation and the row-wise log-softmax of its logits, computed in row blocks.

  The grid has twenty points; point `t` reads rows `5000·t … 5000·t + 4999` of the aggregated features (all 32
  columns), the whole bias row, the whole 32 × 20 classifier matrix and the whole classifier bias row, and writes the
  same rows of two results: the hidden activations (100000 × 32) and the log-probabilities (100000 × 20).

  Inside a block, entry `(p, q)` of the hidden block is the hyperbolic tangent of the aggregated entry plus the bias
  at column `q` (the bias row is repeated down the rows). The logits of row `p` are, at column `c`, the sum over the 32
  hidden coordinates of the hidden entry times the classifier entry (the matrix unit's product into a zero accumulator;
  the change of float format on the way in is the identity on the extended reals), plus the classifier bias at `c`.
  The maximum of the row is folded from minus infinity, kept as a column and repeated along the row; it is subtracted;
  the exponentials of the shifted row are summed, the logarithm of the sum is kept as a column, repeated, and subtracted
  again: the log-softmax of the row. Every step after the logits reads one row only, so it is stated for an arbitrary
  5000 × 20 array of logits.

  Since every row of each result lies in exactly one block, the arrays after the region hold, at row `r`, the
  activation and the log-softmax computed from row `r` of the aggregated features, for whatever contents the region
  finds in its operands.
-/
import proofs.«162919_j33122787787017_1_alg».proof.Proof.Gen.KernelIdeal.Frame
import proofs.«162919_j33122787787017_1_alg».proof.Proof.Spec
import proofs.«162919_j33122787787017_1_alg».proof.Proof.LibPlainMatmul
import proofs.«162919_j33122787787017_1_alg».proof.Proof.LibRows
import proofs.«162919_j33122787787017_1_alg».proof.Proof.LibMatrixReduce
import Idealize.ShloMosaic.Lib.Pipeline.Value
import Idealize.ShloMosaic.Lib.ValueIdx
import Idealize.ShloMosaic.Lib.ValueLayout

set_option maxRecDepth 16384

noncomputable section

namespace Cert.KernelIdeal.Head

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

/-! ## One block -/

/-- The hidden block at row `p` and column `q`: the activation of the aggregated entry and the bias at `q`. -/
theorem hidden_block (x0 : Vec Ideal S5000x32 .f32) (x1 : Vec Ideal S1x32 .f32) (p : Fin 5000) (q : Fin 32) :
    k2_pay1 (F := Ideal) x0 x1 (ix2 p q) = Cert.Spec.act (x0 (ix2 p q)) (x1 (ix2 0 q)) := by
  unfold k2_pay1 Cert.Spec.act
  show Ideal.tanh (shapeCast S5000x32 x0 shapeCasts_S5000x32_S5000x32 (ix2 p q)
      + broadcastTo S5000x32 (shapeCast S1x32 x1 shapeCasts_S1x32_S1x32) broadcasts_S1x32_S5000x32 (ix2 p q)) = _
  refine congrArg Ideal.tanh (congrArg₂ (· + ·) ?_ ?_)
  · exact congrFun (shapeCast_self x0 shapeCasts_S5000x32_S5000x32) (ix2 p q)
  · refine (Cert.Rows.bcast_row (by decide) _ broadcasts_S1x32_S5000x32 p q).trans ?_
    exact congrFun (shapeCast_self x1 shapeCasts_S1x32_S1x32) (ix2 0 q)

/-- The maximum along the second axis, at row `r`: `max` folded over the row from minus infinity. -/
theorem rowMax_apply {m n : ℕ} (v : FVec Ideal (⟨2, ![m, n]⟩ : Shape) .f32)
    (h : (⟨2, ![m, n]⟩ : Shape).Reduces [1] (⟨1, ![m]⟩ : Shape)) (hφ : FKind.Formats .f32)
    (hacc : (0xFF800000#32 : BitVec 32) = FKind.maximumf.neutral .f32 hφ) (r : Fin m) :
    multiReduction .maximumf [1] (⟨1, ![m]⟩ : Shape) v 0xFF800000#32 h hφ hacc (ix1 r)
      = Cert.Spec.rowMax (fun c : Fin n => v (ix2 r c)) := by
  unfold Cert.Spec.rowMax
  refine (Ideal.multiReduction_maximumf_single v 0xFF800000#32 h hφ hacc (ix1 r)).trans ?_
  refine congrArg (fun f => (Finset.univ : Finset (Fin n)).fold max (Ideal.ofBits .f32 0xFF800000#32) f) (funext fun k => ?_)
  exact congrArg v (Cert.Rows.lift_row h r k)

section Softmax

variable (z : FVec Ideal S5000x20 .f32) (hφ : FKind.Formats .f32)
  (hmax : (0xFF800000#32 : BitVec 32) = FKind.maximumf.neutral .f32 hφ)
  (hadd : (0x00000000#32 : BitVec 32) = FKind.add.neutral .f32 hφ)

/-- The row maximum kept as a column and repeated along the row, at `(p, c)`: the maximum of row `p`. -/
theorem keptMax_apply (p : Fin 5000) (c : Fin 20) :
    broadcastTo S5000x20 (shapeCast S5000x1
        (multiReduction .maximumf [1] S5000 z 0xFF800000#32 reduces_S5000x20_S5000 hφ hmax) shapeCasts_S5000_S5000x1)
      broadcasts_S5000x1_S5000x20 (ix2 p c) = Cert.Spec.rowMax (fun c' : Fin 20 => z (ix2 p c')) :=
  (Cert.LibMatrixReduce.keptCol_apply (by decide) _ shapeCasts_S5000_S5000x1 broadcasts_S5000x1_S5000x20 p c).trans
    (rowMax_apply z reduces_S5000x20_S5000 hφ hmax p)

/-- The shifted row at `(p, c)`: the entry minus the maximum of its row. -/
theorem shifted_apply (p : Fin 5000) (c : Fin 20) :
    subf z (broadcastTo S5000x20 (shapeCast S5000x1
        (multiReduction .maximumf [1] S5000 z 0xFF800000#32 reduces_S5000x20_S5000 hφ hmax) shapeCasts_S5000_S5000x1)
      broadcasts_S5000x1_S5000x20) (ix2 p c)
      = z (ix2 p c) - Cert.Spec.rowMax (fun c' : Fin 20 => z (ix2 p c')) :=
  congrArg (fun y => z (ix2 p c) - y) (keptMax_apply z hφ hmax p c)

/-- The sum of the exponentials of a 5000 × 20 array along its rows, at row `p`. -/
theorem expSum_apply (w : FVec Ideal S5000x20 .f32) (p : Fin 5000) :
    multiReduction .add [1] S5000 (exp w) 0x00000000#32 reduces_S5000x20_S5000 hφ hadd (ix1 p)
      = ∑ c' : Fin 20, Ideal.exp (w (ix2 p c')) :=
  Cert.LibMatrixReduce.rowSum_apply (exp w) 0x00000000#32 reduces_S5000x20_S5000 hφ hadd p

/-- The log-softmax of a 5000 × 20 array of logits, as the block computes it, at `(p, q)`. -/
theorem softmax_apply (p : Fin 5000) (q : Fin 20) :
    subf
      (subf z (broadcastTo S5000x20 (shapeCast S5000x1
        (multiReduction .maximumf [1] S5000 z 0xFF800000#32 reduces_S5000x20_S5000 hφ hmax) shapeCasts_S5000_S5000x1)
        broadcasts_S5000x1_S5000x20))
      (broadcastTo S5000x20 (log (shapeCast S5000x1
        (multiReduction .add [1] S5000
          (exp (subf z (broadcastTo S5000x20 (shapeCast S5000x1
            (multiReduction .maximumf [1] S5000 z 0xFF800000#32 reduces_S5000x20_S5000 hφ hmax) shapeCasts_S5000_S5000x1)
            broadcasts_S5000x1_S5000x20)))
          0x00000000#32 reduces_S5000x20_S5000 hφ hadd) shapeCasts_S5000_S5000x1))
        broadcasts_S5000x1_S5000x20) (ix2 p q)
      = Cert.Spec.logSoftmax (fun c' : Fin 20 => z (ix2 p c')) q := by
  unfold Cert.Spec.logSoftmax
  refine congrArg₂ (· - ·) (shifted_apply z hφ hmax p q) ?_
  refine (Cert.Rows.bcast_col (by decide) _ broadcasts_S5000x1_S5000x20 p q).trans ?_
  show Ideal.log (shapeCast S5000x1 _ shapeCasts_S5000_S5000x1 (ix2 p 0)) = _
  refine congrArg Ideal.log ?_
  refine (Cert.Rows.cast_col _ shapeCasts_S5000_S5000x1 p).trans ?_
  refine (expSum_apply hφ hadd _ p).trans ?_
  exact Finset.sum_congr rfl fun c' _ => congrArg Ideal.exp (shifted_apply z hφ hmax p c')

end Softmax

/-- The logits of a block at `(p, c)`: the hidden row times the classifier column, plus the classifier bias. -/
theorem logits_apply (x0 : Vec Ideal S5000x32 .f32) (x1 : Vec Ideal S1x32 .f32) (x2 : Vec Ideal S32x20 .f32)
    (x3 : Vec Ideal S1x20 .f32) (p : Fin 5000) (c : Fin 20) :
    addf (matmul dot_S5000x32_S32x20_S5000x20_1_0_0_1_n_n none
        (truncf .bf16 (k2_pay1 (F := Ideal) x0 x1) bitsLt_bf16_f32) (truncf .bf16 x2 bitsLt_bf16_f32)
        (constant (F := Ideal) S5000x20 .f32 0x00000000#32))
      (broadcastTo S5000x20 (shapeCast S1x20 x3 shapeCasts_S1x20_S1x20) broadcasts_S1x20_S5000x20) (ix2 p c)
      = Cert.Spec.dot (fun k : Fin 32 => Cert.Spec.act (x0 (ix2 p k)) (x1 (ix2 0 k))) (fun k : Fin 32 => x2 (ix2 k c))
        + x3 (ix2 0 c) := by
  refine congrArg₂ (· + ·) ?_ ?_
  · refine (Cert.LibPlainMatmul.matmul_zero_apply dot_S5000x32_S32x20_S5000x20_1_0_0_1_n_n rfl rfl rfl rfl rfl rfl none _ _ p c).trans ?_
    unfold Cert.Spec.dot
    exact Finset.sum_congr rfl fun k _ => congrArg (· * x2 (ix2 k c)) (hidden_block x0 x1 p k)
  · refine (Cert.Rows.bcast_row (by decide) _ broadcasts_S1x20_S5000x20 p c).trans ?_
    exact congrFun (shapeCast_self x3 shapeCasts_S1x20_S1x20) (ix2 0 c)

/-- The log-probability block at row `p` and column `q`: the log-softmax of the row's logits. -/
theorem out_block (x0 : Vec Ideal S5000x32 .f32) (x1 : Vec Ideal S1x32 .f32) (x2 : Vec Ideal S32x20 .f32)
    (x3 : Vec Ideal S1x20 .f32) (p : Fin 5000) (q : Fin 20) :
    k2_pay2 (F := Ideal) x0 x1 x2 x3 (ix2 p q)
      = Cert.Spec.logSoftmax (fun c' : Fin 20 =>
          Cert.Spec.dot (fun k : Fin 32 => Cert.Spec.act (x0 (ix2 p k)) (x1 (ix2 0 k))) (fun k : Fin 32 => x2 (ix2 k c'))
            + x3 (ix2 0 c')) q := by
  unfold k2_pay2
  refine (softmax_apply _ (.inl rfl) rfl rfl p q).trans ?_
  exact congrArg (fun f => Cert.Spec.logSoftmax f q) (funext fun c' => logits_apply x0 x1 x2 x3 p c')

/-! ## From blocks to the arrays -/

theorem hz : (![0, 0] : Fin 2 → Nat) = fun _ => 0 := funext fun a => by fin_cases a <;> rfl

/-- The block index maps over the grid: the aggregated-feature block and the two result blocks move together down the
    rows; the bias row, the classifier matrix and the classifier bias row stay where they are. -/
theorem idx_facts : ∀ t : Fin cfg2.N, win2_0.index t (0 : Fin 2) = win2_5.index t (0 : Fin 2)
    ∧ win2_0.index t (0 : Fin 2) = win2_4.index t (0 : Fin 2)
    ∧ win2_0.index t (1 : Fin 2) = 0 ∧ win2_4.index t (1 : Fin 2) = 0 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_0.index t (0 : Fin 2) ≤ 19 :=
  (by decide +kernel : ∀ t : Fin grid2.N, _)

/-- Every one of the twenty row blocks of the hidden activations is some point's. -/
theorem hidden_idx_onto : ∀ q0 : Fin 20, ∃ t : Fin cfg2.N, win2_5.index t = ![q0.val, 0] :=
  (by decide +kernel : ∀ q0 : Fin 20, ∃ t : Fin grid2.N, win2_5.index t = ![q0.val, 0])

/-- Every one of the twenty row blocks of the log-probabilities is some point's. -/
theorem out_idx_onto : ∀ q0 : Fin 20, ∃ t : Fin cfg2.N, win2_4.index t = ![q0.val, 0] :=
  (by decide +kernel : ∀ q0 : Fin 20, ∃ t : Fin grid2.N, win2_4.index t = ![q0.val, 0])

/-- Point `t`'s block of the aggregated features at `(p, k)` is the array at row `r`, the block's row `p`. -/
theorem agg_read (c : Dev nD) (t : Fin cfg2.N) (p : Fin 5000) (k : Fin 32) (r : Fin 100000)
    (hr : r.val = win2_0.index t (0 : Fin 2) * 5000 + p.val) :
    iblk2 (F := Ideal) V c 0 t (ix2 p k) = (V c main_v57 : S100000x32.Idx → EReal) (ix2 r k) := by
  obtain ⟨-, -, e2, -⟩ := idx_facts t
  show V c main_v57 (((cfg2.win 0).blk t).view.emb (ix2 p k)) = V c main_v57 _
  refine congrArg (V c main_v57) (funext fun a => Fin.ext ?_)
  match a with
  | ⟨0, _⟩ => show win2_0.index t (0 : Fin 2) * 5000 + 1 * p.val = r.val; omega
  | ⟨1, _⟩ => show win2_0.index t (1 : Fin 2) * 32 + 1 * k.val = k.val; omega

/-- Every point's block of the bias row is the whole row. -/
theorem bias_read (c : Dev nD) (t : Fin cfg2.N) (k : Fin 32) :
    iblk2 (F := Ideal) V c 1 t (ix2 0 k) = (V c main_v58 : S1x32.Idx → EReal) (ix2 0 k) := by
  obtain ⟨-, -, -, -, -, e5, e6, -⟩ := idx_facts t
  show V c main_v58 (((cfg2.win 1).blk t).view.emb (ix2 0 k)) = V c main_v58 _
  refine congrArg (V c main_v58) (funext fun a => Fin.ext ?_)
  match a with
  | ⟨0, _⟩ => show win2_1.index t (0 : Fin 2) * 1 + 1 * 0 = 0; omega
  | ⟨1, _⟩ => show win2_1.index t (1 : Fin 2) * 32 + 1 * k.val = k.val; omega

/-- Every point's block of the classifier matrix is the whole matrix. -/
theorem cls_read (c : Dev nD) (t : Fin cfg2.N) (k : Fin 32) (c' : Fin 20) :
    iblk2 (F := Ideal) V c 2 t (ix2 k c') = (V c main_arg6 : S32x20.Idx → EReal) (ix2 k c') := by
  obtain ⟨-, -, -, -, -, -, -, e7, e8, -⟩ := idx_facts t
  show V c main_arg6 (((cfg2.win 2).blk t).view.emb (ix2 k c')) = V c main_arg6 _
  refine congrArg (V c main_arg6) (funext fun a => Fin.ext ?_)
  match a with
  | ⟨0, _⟩ => show win2_2.index t (0 : Fin 2) * 32 + 1 * k.val = k.val; omega
  | ⟨1, _⟩ => show win2_2.index t (1 : Fin 2) * 20 + 1 * c'.val = c'.val; omega

/-- Every point's block of the classifier bias row is the whole row. -/
theorem clsBias_read (c : Dev nD) (t : Fin cfg2.N) (c' : Fin 20) :
    iblk2 (F := Ideal) V c 3 t (ix2 0 c') = (V c main_v59 : S1x20.Idx → EReal) (ix2 0 c') := by
  obtain ⟨-, -, -, -, -, -, -, -, -, e9, e10, -⟩ := idx_facts t
  show V c main_v59 (((cfg2.win 3).blk t).view.emb (ix2 0 c')) = V c main_v59 _
  refine congrArg (V c main_v59) (funext fun a => Fin.ext ?_)
  match a with
  | ⟨0, _⟩ => show win2_3.index t (0 : Fin 2) * 1 + 1 * 0 = 0; omega
  | ⟨1, _⟩ => show win2_3.index t (1 : Fin 2) * 20 + 1 * c'.val = c'.val; omega

/-! ### The hidden activations -/

/-- The hidden activations as one function of the aggregated features and the bias row as the region finds them. -/
def hidden (c : Dev nD) : S100000x32.Idx → EReal := fun i =>
  Cert.Spec.act ((V c main_v57 : S100000x32.Idx → EReal) (ix2 ⟨(i 0).val, idx2_lt0 i⟩ ⟨(i 1).val, idx2_lt1 i⟩))
    ((V c main_v58 : S1x32.Idx → EReal) (ix2 0 ⟨(i 1).val, idx2_lt1 i⟩))

/-- What point `t` writes back to the hidden activations is block `t` of the whole function. -/
theorem hidden_flushed_eq (c : Dev nD) (t : Fin cfg2.N) :
    (dat2 (F := Ideal) V c).flushed 5 t = ((cfg2.win 5).blk t).view.read (Elt Ideal) (hidden V c) := by
  show (cfg2.win 5).cut (grid2.coords t) ((dat2 V c).after 5 t) = _
  rw [after2_5]
  unfold out2_5
  rw [View.canon_unit_zero hz]
  simp only [View.ld_unit_zero (S := S5000x32) hz, View.ld_unit_zero (S := S1x32) hz]
  obtain ⟨e0, -, -, -, e4, -⟩ := idx_facts t
  funext j
  obtain ⟨p, q, rfl⟩ : ∃ (p : Fin 5000) (q : Fin 32), j = ix2 p q := ⟨j 0, j 1, eq_ix2 j⟩
  show k2_pay1 (F := Ideal) (iblk2 V c 0 t) (iblk2 V c 1 t) (ix2 p q) = hidden V c (((cfg2.win 5).blk t).view.emb (ix2 p q))
  refine (hidden_block (iblk2 V c 0 t) (iblk2 V c 1 t) p q).trans ?_
  unfold hidden
  have hq : (⟨((((cfg2.win 5).blk t).view.emb (ix2 p q)) 1).val, idx2_lt1 _⟩ : Fin 32) = q :=
    Fin.ext (by show win2_5.index t (1 : Fin 2) * 32 + 1 * q.val = q.val; omega)
  rw [hq]
  refine congrArg₂ Cert.Spec.act (agg_read V c t p q _ ?_) (bias_read V c t q)
  show win2_5.index t (0 : Fin 2) * 5000 + 1 * p.val = win2_0.index t (0 : Fin 2) * 5000 + p.val
  omega

/-- An index of the hidden activations is in point `t`'s block iff each coordinate is in the block's range on its axis. -/
theorem hidden_mem_blk (t : Fin cfg2.N) (i : S100000x32.Idx) :
    i ∈ ((cfg2.win 5).blk t).view.set ↔ ∀ a : Fin 2, win2_5.index t a * S5000x32.size a ≤ (i a).val ∧ (i a).val < win2_5.index t a * S5000x32.size a + S5000x32.size a := by
  show i ∈ ((View.whole main_v60_1).slice (win2_5.rect t)).set ↔ _
  rw [View.set_slice_whole, Rect.mem_set_unit]
  exact Iff.rfl

/-- Every index of the hidden activations lies in some point's block: the row's block is the row divided by 5000. -/
theorem hidden_cover (i : S100000x32.Idx) : ∃ t : Fin cfg2.N, (cfg2.win 5).flush t = true ∧ i ∈ ((cfg2.win 5).blk t).view.set := by
  have hi0 : (i 0).val < 100000 := (i 0).isLt
  have hi1 : (i 1).val < 32 := (i 1).isLt
  obtain ⟨t, ht⟩ := hidden_idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [hidden_mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 32 ≤ (i 1).val ∧ (i 1).val < win2_5.index t (1 : Fin 2) * 32 + 32; omega

/-- The hidden activations after the region, whatever the region found in its operands. -/
theorem final_hidden (c : Dev nD) : (dat2 (F := Ideal) V c).arrAt 5 cfg2.N = hidden V c :=
  (dat2 V c).arrAt_eq_of_cover 5 (hidden V c) (fun t _ => hidden_flushed_eq V c t) (hidden_cover)

/-- Read at row `r` and column `q`. -/
theorem final_hidden_apply (c : Dev nD) (r : Fin 100000) (q : Fin 32) :
    (dat2 (F := Ideal) V c).arrAt 5 cfg2.N (ix2 r q)
      = Cert.Spec.act ((V c main_v57 : S100000x32.Idx → EReal) (ix2 r q)) ((V c main_v58 : S1x32.Idx → EReal) (ix2 0 q)) := by
  rw [final_hidden]; rfl

/-! ### The log-probabilities -/

/-- The log-probabilities as one function of the four operand arrays as the region finds them: at row `r`, the
    log-softmax of the logits of row `r`. -/
def logProb (c : Dev nD) : S100000x20.Idx → EReal := fun i =>
  Cert.Spec.logSoftmax (fun c' : Fin 20 =>
    Cert.Spec.dot (fun k : Fin 32 => Cert.Spec.act ((V c main_v57 : S100000x32.Idx → EReal) (ix2 ⟨(i 0).val, idx2_lt0 i⟩ k))
        ((V c main_v58 : S1x32.Idx → EReal) (ix2 0 k)))
      (fun k : Fin 32 => (V c main_arg6 : S32x20.Idx → EReal) (ix2 k c'))
    + (V c main_v59 : S1x20.Idx → EReal) (ix2 0 c')) ⟨(i 1).val, idx2_lt1 i⟩

/-- What point `t` writes back to the log-probabilities is block `t` of the whole function. -/
theorem out_flushed_eq (c : Dev nD) (t : Fin cfg2.N) :
    (dat2 (F := Ideal) V c).flushed 4 t = ((cfg2.win 4).blk t).view.read (Elt Ideal) (logProb V c) := by
  show (cfg2.win 4).cut (grid2.coords t) ((dat2 V c).after 4 t) = _
  rw [after2_4]
  unfold out2_4
  rw [View.canon_unit_zero hz]
  simp only [View.ld_unit_zero (S := S5000x32) hz, View.ld_unit_zero (S := S1x32) hz,
    View.ld_unit_zero (S := S32x20) hz, View.ld_unit_zero (S := S1x20) hz]
  obtain ⟨-, e1, -, e3, -⟩ := idx_facts t
  funext j
  obtain ⟨p, q, rfl⟩ : ∃ (p : Fin 5000) (q : Fin 20), j = ix2 p q := ⟨j 0, j 1, eq_ix2 j⟩
  show k2_pay2 (F := Ideal) (iblk2 V c 0 t) (iblk2 V c 1 t) (iblk2 V c 2 t) (iblk2 V c 3 t) (ix2 p q)
    = logProb V c (((cfg2.win 4).blk t).view.emb (ix2 p q))
  refine (out_block (iblk2 V c 0 t) (iblk2 V c 1 t) (iblk2 V c 2 t) (iblk2 V c 3 t) p q).trans ?_
  unfold logProb
  refine congrArg₂ (Cert.Spec.logSoftmax (n := 20))
    (funext fun c' => congrArg₂ (· + ·)
      (congrArg₂ Cert.Spec.dot
        (funext fun k => congrArg₂ Cert.Spec.act (agg_read V c t p k _ ?_) (bias_read V c t k))
        (funext fun k => cls_read V c t k c'))
      (clsBias_read V c t c'))
    (Fin.ext ?_)
  · show win2_4.index t (0 : Fin 2) * 5000 + 1 * p.val = win2_0.index t (0 : Fin 2) * 5000 + p.val
    omega
  · show q.val = win2_4.index t (1 : Fin 2) * 20 + 1 * q.val
    omega

/-- An index of the log-probabilities is in point `t`'s block iff each coordinate is in the block's range on its axis. -/
theorem out_mem_blk (t : Fin cfg2.N) (i : S100000x20.Idx) :
    i ∈ ((cfg2.win 4).blk t).view.set ↔ ∀ a : Fin 2, win2_4.index t a * S5000x20.size a ≤ (i a).val ∧ (i a).val < win2_4.index t a * S5000x20.size a + S5000x20.size a := by
  show i ∈ ((View.whole main_v60_0).slice (win2_4.rect t)).set ↔ _
  rw [View.set_slice_whole, Rect.mem_set_unit]
  exact Iff.rfl

/-- Every index of the log-probabilities lies in some point's block: the row's block is the row divided by 5000. -/
theorem out_cover (i : S100000x20.Idx) : ∃ t : Fin cfg2.N, (cfg2.win 4).flush t = true ∧ i ∈ ((cfg2.win 4).blk t).view.set := by
  have hi0 : (i 0).val < 100000 := (i 0).isLt
  have hi1 : (i 1).val < 20 := (i 1).isLt
  obtain ⟨t, ht⟩ := out_idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [out_mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 20 ≤ (i 1).val ∧ (i 1).val < win2_4.index t (1 : Fin 2) * 20 + 20; omega

/-- The log-probabilities after the region, whatever the region found in its operands. -/
theorem final_out (c : Dev nD) : (dat2 (F := Ideal) V c).arrAt 4 cfg2.N = logProb V c :=
  (dat2 V c).arrAt_eq_of_cover 4 (logProb V c) (fun t _ => out_flushed_eq V c t) (out_cover)

/-- Read at row `r` and column `q`. -/
theorem final_out_apply (c : Dev nD) (r : Fin 100000) (q : Fin 20) :
    (dat2 (F := Ideal) V c).arrAt 4 cfg2.N (ix2 r q)
      = Cert.Spec.logSoftmax (fun c' : Fin 20 =>
          Cert.Spec.dot (fun k : Fin 32 => Cert.Spec.act ((V c main_v57 : S100000x32.Idx → EReal) (ix2 r k))
              ((V c main_v58 : S1x32.Idx → EReal) (ix2 0 k)))
            (fun k : Fin 32 => (V c main_arg6 : S32x20.Idx → EReal) (ix2 k c'))
          + (V c main_v59 : S1x20.Idx → EReal) (ix2 0 c')) q := by
  rw [final_out]; rfl

end Cert.KernelIdeal.Head

end
-- ==== Proof.RefIndex.lean ====
/-
  The reference's stages read at an explicit index (row `r`, column `c`).

  Each layer of the reference is a matrix product (one entry is the sum over the contracted coordinate of the
  products of a row of the left factor and a column of the right factor), an aggregation along the edges that is
  never opened here, and the hyperbolic tangent of the aggregated value plus a bias that depends on the column only.
  The head adds a bias to a last matrix product and takes the row-wise log-softmax: the row's maximum (folded from
  minus infinity) is subtracted from every entry, then the logarithm of the sum of the exponentials of the shifted
  row is subtracted.
-/
import proofs.«162919_j33122787787017_1_alg».proof.Proof.RefReadPatched
import proofs.«162919_j33122787787017_1_alg».proof.Proof.Spec
import Idealize.ShloMosaic.Lib.ValueIdx
import Idealize.ShloMosaic.PureOps.Ideal.Laws
import Idealize.ShloMosaic.PureOps.Reduce

noncomputable section

open scoped BigOperators

namespace Cert.RefIndex

open Cert.ReferenceIdeal Cert.ReferenceIdeal.Gen Cert.ReferenceIdeal.Read
open Idealize.ShloMosaic Idealize.ShloMosaic.ValueIdx

/-- The first product at `(r, c)`: row `r` of the features against column `c` of the first weight matrix. -/
theorem product1_apply (x0 : (⟨S100000x128, .f32⟩ : BufTy).Contents (Elt Ideal)) (x2 : (⟨S128x32, .f32⟩ : BufTy).Contents (Elt Ideal)) (r : Fin 100000) (c : Fin 32) :
    val_main_v46 (F := Ideal) x0 x2 (ix2 r c)
      = Cert.Spec.dot (fun k : Fin 128 => x0 (ix2 r k)) (fun k : Fin 128 => x2 (ix2 k c)) := by
  rw [val_main_v46_apply]
  unfold Cert.Spec.dot
  refine Finset.sum_congr rfl fun k _ => ?_
  have el : lidx_main_v46 (ix2 r c) k = ix2 r k :=
    funext fun a => Fin.ext (by match a with | ⟨0, _⟩ => rfl | ⟨1, _⟩ => rfl)
  have er : ridx_main_v46 (ix2 r c) k = ix2 k c :=
    funext fun a => Fin.ext (by match a with | ⟨0, _⟩ => rfl | ⟨1, _⟩ => rfl)
  rw [el, er]

/-- The first hidden layer at `(r, c)`: the activation of the aggregated value at `(r, c)` and the bias at `c`. -/
theorem hidden1_apply (x0 : (⟨S100000x128, .f32⟩ : BufTy).Contents (Elt Ideal)) (x1 : (⟨S2x3200000, .i32⟩ : BufTy).Contents (Elt Ideal)) (x2 : (⟨S128x32, .f32⟩ : BufTy).Contents (Elt Ideal)) (x3 : (⟨S32, .f32⟩ : BufTy).Contents (Elt Ideal)) (r : Fin 100000) (c : Fin 32) :
    val_main_v63 (F := Ideal) x0 x1 x2 x3 (ix2 r c)
      = Cert.Spec.act (val_main_v59 (F := Ideal) x0 x1 x2 (ix2 r c)) (x3 (ix1 c)) := by
  rw [val_main_v63_apply, val_main_v62_apply, val_main_v61_apply, val_main_v60_apply]
  have e : idx_main_v60 (idx_main_v61 (ix2 r c)) = ix1 c :=
    funext fun a => Fin.ext (by match a with | ⟨0, _⟩ => rfl)
  rw [e]
  simp only [Ideal.addf_def, Ideal.hostUnary_tanh_def]
  unfold Cert.Spec.act
  rfl

/-- The second product at `(r, c)`: row `r` of the first hidden layer against column `c` of the second weight matrix. -/
theorem product2_apply (x0 : (⟨S100000x128, .f32⟩ : BufTy).Contents (Elt Ideal)) (x1 : (⟨S2x3200000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (r : Fin 100000) (c : Fin 32) :
    val_main_v64 (F := Ideal) x0 x1 x2 x3 x4 (ix2 r c)
      = Cert.Spec.dot (fun k : Fin 32 => val_main_v63 (F := Ideal) x0 x1 x2 x3 (ix2 r k)) (fun k : Fin 32 => x4 (ix2 k c)) := by
  rw [val_main_v64_apply]
  unfold Cert.Spec.dot
  refine Finset.sum_congr rfl fun k _ => ?_
  have el : lidx_main_v64 (ix2 r c) k = ix2 r k :=
    funext fun a => Fin.ext (by match a with | ⟨0, _⟩ => rfl | ⟨1, _⟩ => rfl)
  have er : ridx_main_v64 (ix2 r c) k = ix2 k c :=
    funext fun a => Fin.ext (by match a with | ⟨0, _⟩ => rfl | ⟨1, _⟩ => rfl)
  rw [el, er]

/-- The second hidden layer at `(r, c)`: the activation of the aggregated value at `(r, c)` and the bias at `c`. -/
theorem hidden2_apply (x0 : (⟨S100000x128, .f32⟩ : BufTy).Contents (Elt Ideal)) (x1 : (⟨S2x3200000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (r : Fin 100000) (c : Fin 32) :
    val_main_v81 (F := Ideal) x0 x1 x2 x3 x4 x5 (ix2 r c)
      = Cert.Spec.act (val_main_v77 (F := Ideal) x0 x1 x2 x3 x4 (ix2 r c)) (x5 (ix1 c)) := by
  rw [val_main_v81_apply, val_main_v80_apply, val_main_v79_apply, val_main_v78_apply]
  have e : idx_main_v78 (idx_main_v79 (ix2 r c)) = ix1 c :=
    funext fun a => Fin.ext (by match a with | ⟨0, _⟩ => rfl)
  rw [e]
  simp only [Ideal.addf_def, Ideal.hostUnary_tanh_def]
  unfold Cert.Spec.act
  rfl

/-- The f32 pattern of minus infinity, read as an extended real, is the bottom element. -/
private theorem negInf_eq_bot : Ideal.ofBits .f32 0xFF800000#32 = (⊥ : EReal) := by
  simp [Ideal.ofBits, Ideal.ieee]

/-- The logits at `(r, c')`: row `r` of the second hidden layer against column `c'` of the head's weight matrix,
    plus the head's bias at `c'`. -/
private theorem logits_apply (x0 : (⟨S100000x128, .f32⟩ : BufTy).Contents (Elt Ideal)) (x1 : (⟨S2x3200000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x20, .f32⟩ : BufTy).Contents (Elt Ideal)) (x7 : (⟨S20, .f32⟩ : BufTy).Contents (Elt Ideal)) (r : Fin 100000) (c' : Fin 20) :
    val_main_v85 (F := Ideal) x0 x1 x2 x3 x4 x5 x6 x7 (ix2 r c')
      = Cert.Spec.dot (fun k : Fin 32 => val_main_v81 (F := Ideal) x0 x1 x2 x3 x4 x5 (ix2 r k)) (fun k : Fin 32 => x6 (ix2 k c'))
          + x7 (ix1 c') := by
  rw [val_main_v85_apply, val_main_v82_apply, val_main_v84_apply, val_main_v83_apply]
  have e : idx_main_v83 (idx_main_v84 (ix2 r c')) = ix1 c' :=
    funext fun a => Fin.ext (by match a with | ⟨0, _⟩ => rfl)
  rw [e]
  simp only [Ideal.addf_def]
  unfold Cert.Spec.dot
  refine congrArg (· + x7 (ix1 c')) (Finset.sum_congr rfl fun k _ => ?_)
  have el : lidx_main_v82 (ix2 r c') k = ix2 r k :=
    funext fun a => Fin.ext (by match a with | ⟨0, _⟩ => rfl | ⟨1, _⟩ => rfl)
  have er : ridx_main_v82 (ix2 r c') k = ix2 k c' :=
    funext fun a => Fin.ext (by match a with | ⟨0, _⟩ => rfl | ⟨1, _⟩ => rfl)
  rw [el, er]

/-- The maximum of row `r` of any array of the logits' shape: the host's reduction over the column axis, joined
    once more with minus infinity, is the fold of `max` from minus infinity over the row's twenty entries. -/
private theorem reduceMax_row (y : (⟨S100000x20, .f32⟩ : BufTy).Contents (Elt Ideal)) (r : Fin 100000) :
    max (Ideal.ofBits .f32 0xFF800000#32)
        (Host.reduce (FloatOps.maximumf (F := Ideal) (φ := .f32)) y (val_main_call3_cst (F := Ideal))
          reducesTo_S100000x20_S100000_d1 h_S_ (ix1 r))
      = Cert.Spec.rowMax (fun c' : Fin 20 => y (ix2 r c')) := by
  have h : S100000x20.Reduces [1] S100000 := by decide
  have hle : ∀ t : EReal, Ideal.ofBits .f32 0xFF800000#32 ≤ t := fun t => by rw [negInf_eq_bot]; exact bot_le
  rw [max_eq_right (hle _)]
  refine (Host.reduce_eq_fold_single (FloatOps.maximumf (F := Ideal) (φ := .f32)) y (val_main_call3_cst (F := Ideal))
    reducesTo_S100000x20_S100000_d1 h h_S_ (ix1 r)).trans ?_
  unfold Cert.Spec.rowMax
  have hf : (y ∘ h.lift (ix1 r)) = fun c' : Fin 20 => y (ix2 r c') :=
    funext fun k => congrArg y (funext fun a => Fin.ext (by match a with | ⟨0, _⟩ => rfl | ⟨1, _⟩ => rfl))
  rw [hf, val_main_call3_cst_apply, Ideal.ofBits_def]
  rfl

/-- The maximum of row `r` of the logits. -/
private theorem rowMax_apply (x0 : (⟨S100000x128, .f32⟩ : BufTy).Contents (Elt Ideal)) (x1 : (⟨S2x3200000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x20, .f32⟩ : BufTy).Contents (Elt Ideal)) (x7 : (⟨S20, .f32⟩ : BufTy).Contents (Elt Ideal)) (r : Fin 100000) :
    val_main_call3_v2 (F := Ideal) x0 x1 x2 x3 x4 x5 x6 x7 (ix1 r)
      = Cert.Spec.rowMax (fun c' : Fin 20 => val_main_v85 (F := Ideal) x0 x1 x2 x3 x4 x5 x6 x7 (ix2 r c')) := by
  rw [val_main_call3_v2_apply, val_main_call3_v1_apply, val_main_call3_cst_0_apply, Ideal.maximumf_def, Ideal.ofBits_def]
  unfold val_main_call3_v0
  generalize val_main_v85 (F := Ideal) x0 x1 x2 x3 x4 x5 x6 x7 = y
  exact reduceMax_row y r

/-- The shifted logits at `(r, c)`: the entry minus its row's maximum. -/
private theorem shifted_apply (x0 : (⟨S100000x128, .f32⟩ : BufTy).Contents (Elt Ideal)) (x1 : (⟨S2x3200000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x20, .f32⟩ : BufTy).Contents (Elt Ideal)) (x7 : (⟨S20, .f32⟩ : BufTy).Contents (Elt Ideal)) (r : Fin 100000) (c : Fin 20) :
    val_main_call3_v5 (F := Ideal) x0 x1 x2 x3 x4 x5 x6 x7 (ix2 r c)
      = val_main_v85 (F := Ideal) x0 x1 x2 x3 x4 x5 x6 x7 (ix2 r c)
          - Cert.Spec.rowMax (fun c' : Fin 20 => val_main_v85 (F := Ideal) x0 x1 x2 x3 x4 x5 x6 x7 (ix2 r c')) := by
  rw [val_main_call3_v5_apply, val_main_call3_v4_apply, val_main_call3_v3_apply]
  have e : idx_main_call3_v3 (idx_main_call3_v4 (ix2 r c)) = ix1 r :=
    funext fun a => Fin.ext (by match a with | ⟨0, _⟩ => rfl)
  rw [e, rowMax_apply, Ideal.subf_def]

/-- The logarithm of the sum of the exponentials of the shifted row `r`, as broadcast to `(r, c)`. -/
private theorem logSum_apply (x0 : (⟨S100000x128, .f32⟩ : BufTy).Contents (Elt Ideal)) (x1 : (⟨S2x3200000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x20, .f32⟩ : BufTy).Contents (Elt Ideal)) (x7 : (⟨S20, .f32⟩ : BufTy).Contents (Elt Ideal)) (r : Fin 100000) (c : Fin 20) :
    val_main_call3_v10 (F := Ideal) x0 x1 x2 x3 x4 x5 x6 x7 (ix2 r c)
      = Ideal.log (∑ c' : Fin 20, Ideal.exp (val_main_call3_v5 (F := Ideal) x0 x1 x2 x3 x4 x5 x6 x7 (ix2 r c'))) := by
  rw [val_main_call3_v10_apply, val_main_call3_v9_apply, val_main_call3_v8_apply]
  have e : idx_main_call3_v8 (idx_main_call3_v10 (ix2 r c)) = ix1 r :=
    funext fun a => Fin.ext (by match a with | ⟨0, _⟩ => rfl)
  rw [e, val_main_call3_v7_apply, val_main_call3_cst_1_apply, Ideal.hostUnary_log_def, Ideal.ofBits_def,
    Ideal.ofBits_zero_f32, zero_add]
  refine congrArg Ideal.log (Finset.sum_congr rfl fun k _ => ?_)
  have ek : idx_main_call3_v7 (ix1 r) k = ix2 r k :=
    funext fun a => Fin.ext (by match a with | ⟨0, _⟩ => rfl | ⟨1, _⟩ => rfl)
  rw [ek, val_main_call3_v6_apply, Ideal.hostUnary_exp_def]

/-- The output at `(r, c)`: the log-softmax of row `r` of the logits, at column `c`. -/
theorem out_apply (x0 : (⟨S100000x128, .f32⟩ : BufTy).Contents (Elt Ideal)) (x1 : (⟨S2x3200000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x20, .f32⟩ : BufTy).Contents (Elt Ideal)) (x7 : (⟨S20, .f32⟩ : BufTy).Contents (Elt Ideal)) (r : Fin 100000) (c : Fin 20) :
    val_main_v86 (F := Ideal) x0 x1 x2 x3 x4 x5 x6 x7 (ix2 r c)
      = Cert.Spec.logSoftmax
          (fun c' : Fin 20 =>
            Cert.Spec.dot (fun k : Fin 32 => val_main_v81 (F := Ideal) x0 x1 x2 x3 x4 x5 (ix2 r k)) (fun k : Fin 32 => x6 (ix2 k c'))
              + x7 (ix1 c')) c := by
  rw [val_main_v86_apply, logSum_apply, Ideal.subf_def]
  simp only [shifted_apply, logits_apply]
  unfold Cert.Spec.logSoftmax
  rfl

end Cert.RefIndex

end
-- ==== Proof.LibInvSqrt.lean ====
/-
  The reciprocal square root against one over the square root, on the extended reals.

  On a nonnegative extended real the two spellings agree: at plus infinity both are zero; at zero both are
  plus infinity (the quotient of a positive number by zero); at a positive real both are the real
  reciprocal of the real square root. (Below zero they differ, which is why the hypothesis is needed.)
-/
import Idealize.ShloMosaic.PureOps.Ideal

noncomputable section

namespace Cert.LibInvSqrt

open Idealize.ShloMosaic

/-- For `0 ≤ y`, the reciprocal square root of `y` is the quotient of one by the square root of `y`. -/
theorem rsqrt_eq_one_div_sqrt (y : EReal) (hy : 0 ≤ y) : Ideal.rsqrt y = Ideal.div 1 (Ideal.sqrt y) := by
  induction y using EReal.rec with
  | bot => exact absurd hy (by simp)
  | top => simp [Ideal.div]
  | coe r =>
    have hr : 0 ≤ r := by exact_mod_cast hy
    rw [Ideal.rsqrt_coe, Ideal.sqrt_coe, if_neg (not_lt.mpr hr), if_neg (not_lt.mpr hr)]
    rcases hr.eq_or_lt with h | h
    · subst h
      simp [Ideal.div]
    · have hs : Real.sqrt r ≠ 0 := (Real.sqrt_pos.mpr h).ne'
      rw [if_neg h.ne', Ideal.div, if_neg (by exact_mod_cast hs), one_mul, EReal.coe_inv]

end Cert.LibInvSqrt

end
-- ==== Proof.Bridge.lean ====
/-
  The two programs compute the same arrays: the kernel program's buffers at its segment boundaries are the reference's
  stages.

  Walking the kernel program from the launch: the edges' sources and targets and the in-degrees are the same host
  operations in both programs; the per-node normaliser is `rsqrt (max (deg, ε))` in one and `1 / sqrt (max (deg, ε))` in
  the other, which agree because `max (deg, ε)` is never negative (ε is a positive number); so the edge weights agree.
  The first region's result is the reference's first matrix product (both are, entry by entry, the sum over the
  contracted coordinate); aggregating it along the edges is the same host text; the second region's result is the
  reference's second product of the activated rows; aggregating again; and the third region's two results are the
  reference's activated rows and their row-wise log-softmax.
-/
import proofs.«162919_j33122787787017_1_alg».proof.Proof.Boundaries
import proofs.«162919_j33122787787017_1_alg».proof.Proof.FirstProduct
import proofs.«162919_j33122787787017_1_alg».proof.Proof.MiddleLayer
import proofs.«162919_j33122787787017_1_alg».proof.Proof.Head
import proofs.«162919_j33122787787017_1_alg».proof.Proof.RefIndex
import proofs.«162919_j33122787787017_1_alg».proof.Proof.LibInvSqrt
import Idealize.ShloMosaic.Lib.IdealHost
import Idealize.ShloMosaic.Lib.ValueLayout

set_option maxRecDepth 16384

noncomputable section

namespace Cert.Bridge

open Idealize.ShloMosaic Idealize.ShloMosaic.ValueIdx Idealize.ShloMosaic.TcCoe Idealize.SL.Sem
open Cert.KernelIdeal.Gen (W3 W4 W5 W6 W7 W8 V3 V5 V7)
open Cert.ReferenceIdeal.Read
open Cert.KernelIdeal.Boundaries

/-! ## The normaliser -/

/-- The small positive constant under the square root is not negative. -/
theorem eps_nonneg : (0 : EReal) ≤ Ideal.ofBits .f32 0x2B8CBCCC#32 := by
  simp [Ideal.ofBits, Ideal.ieee, -EReal.coe_mul]

/-- One over the square root of `max (deg, ε)` is its reciprocal square root: the argument is never negative. -/
theorem quotient_eq_rsqrt (e : (⟨Cert.ReferenceIdeal.S2x3200000, .i32⟩ : BufTy).Contents (Elt Ideal)) :
    val_main_v29 (F := Ideal) e = (Host.rsqrt (F := Ideal) (val_main_v26 (F := Ideal) e) : FVec Ideal Cert.ReferenceIdeal.S100000 .f32) := by
  funext i
  rw [val_main_v29_apply, val_main_v27_apply, val_main_v28_apply, val_main_cst_9_apply]
  have h0 : (0 : EReal) ≤ val_main_v26 (F := Ideal) e i := by
    rw [val_main_v26_apply, val_main_v25_apply, val_main_cst_8_apply]
    generalize val_main_v11 (F := Ideal) e i = d
    rw [Ideal.maximumf_def, Ideal.ofBits_def]
    exact le_max_of_le_right eps_nonneg
  have hr : ∀ (Y : FVec Ideal Cert.ReferenceIdeal.S100000 .f32) (j : Cert.ReferenceIdeal.S100000.Idx),
      Host.rsqrt (F := Ideal) Y j = Ideal.rsqrt (Y j) := fun _ _ => rfl
  rw [hr]
  generalize val_main_v26 (F := Ideal) e i = y at h0 ⊢
  rw [Ideal.hostDivf_def, Ideal.hostUnary_sqrt_def, Ideal.ofBits_def, Ideal.ofBits_one_f32]
  exact (Cert.LibInvSqrt.rsqrt_eq_one_div_sqrt y h0).symm

/-- The kernel program's normaliser of the degrees is the reference's. -/
theorem normaliser_eq (e : (⟨Cert.ReferenceIdeal.S2x3200000, .i32⟩ : BufTy).Contents (Elt Ideal)) :
    invSqrtDegree (F := Ideal) (degree (F := Ideal) e) = val_main_v30 (F := Ideal) e := by
  rw [show val_main_v30 (F := Ideal) e = select (val_main_v24 (F := Ideal) e) (val_main_v29 (F := Ideal) e) (val_main_call2_v1 (F := Ideal)) from rfl,
    quotient_eq_rsqrt]
  rfl

/-- So the edge weights agree. -/
theorem weights_eq (e : (⟨Cert.ReferenceIdeal.S2x3200000, .i32⟩ : BufTy).Contents (Elt Ideal)) :
    edgeWeight (F := Ideal) (invSqrtDegree (degree e)) (sources e) (targets e) = val_main_v45 (F := Ideal) e := by
  rw [normaliser_eq]
  rfl

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-! ## The first layer -/

/-- After the first region: the first matrix product. -/
theorem product1_eq : W4 m ρ c (Proc.devRef .tc Cert.KernelIdeal.main_v29) = val_main_v46 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) := by
  funext i
  obtain ⟨r, q, rfl⟩ : ∃ (r : Fin 100000) (q : Fin 32), i = ix2 r q := ⟨i 0, i 1, eq_ix2 i⟩
  refine (congrFun (Cert.KernelIdeal.Gen.W4_arr m ρ c 2) (ix2 r q)).trans ?_
  rw [Cert.KernelIdeal.FirstProduct.final_apply, Cert.RefIndex.product1_apply]
  show Cert.Spec.dot (fun k : Fin 128 => W3 m ρ c (Proc.devRef .tc Cert.KernelIdeal.main_arg0) (ix2 r k))
    (fun k : Fin 128 => W3 m ρ c (Proc.devRef .tc Cert.KernelIdeal.main_arg2) (ix2 k q)) = _
  rw [W3_main_arg0, W3_main_arg2]

/-- Aggregated along the edges. -/
theorem aggregate1_eq : W5 m ρ c (Proc.devRef .tc Cert.KernelIdeal.main_v42) = val_main_v59 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) := by
  rw [W5_aggregate, W4_main_v28, W4_main_v1, W4_main_v3, W3_weights, W3_sources, W3_targets, product1_eq, weights_eq]
  rfl

/-- The first bias as a row, read at a column. -/
theorem bias1_apply (k : Fin 32) : W5 m ρ c (Proc.devRef .tc Cert.KernelIdeal.main_v43) (ix2 0 k) = (m ((c : Thread Cert.KernelIdeal.nD Cert.KernelIdeal.τ).loc Cert.KernelIdeal.main_arg3)) (ix1 k) := by
  rw [W5_bias, W4_main_arg3, W3_main_arg3]
  exact shapeCast_a_1a_apply _ _ 0 k

/-! ## The second layer -/

/-- After the second region: the second matrix product, of the activated rows. -/
theorem product2_eq : W6 m ρ c (Proc.devRef .tc Cert.KernelIdeal.main_v44) = val_main_v64 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  funext i
  obtain ⟨r, q, rfl⟩ : ∃ (r : Fin 100000) (q : Fin 32), i = ix2 r q := ⟨i 0, i 1, eq_ix2 i⟩
  refine (congrFun (Cert.KernelIdeal.Gen.W6_arr m ρ c 3) (ix2 r q)).trans ?_
  rw [Cert.KernelIdeal.MiddleLayer.final_apply, Cert.RefIndex.product2_apply]
  show Cert.Spec.dot (fun k : Fin 32 => Cert.Spec.act (W5 m ρ c (Proc.devRef .tc Cert.KernelIdeal.main_v42) (ix2 r k)) (W5 m ρ c (Proc.devRef .tc Cert.KernelIdeal.main_v43) (ix2 0 k)))
    (fun k : Fin 32 => W5 m ρ c (Proc.devRef .tc Cert.KernelIdeal.main_arg4) (ix2 k q)) = _
  rw [aggregate1_eq, W5_main_arg4, W3_main_arg4]
  simp only [Cert.RefIndex.hidden1_apply]
  exact congrArg₂ Cert.Spec.dot (funext fun k => congrArg (Cert.Spec.act _) (bias1_apply m ρ c k)) rfl

/-- Aggregated along the edges. -/
theorem aggregate2_eq : W7 m ρ c (Proc.devRef .tc Cert.KernelIdeal.main_v57) = val_main_v77 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  rw [W7_aggregate, W6_main_v28, W6_main_v1, W6_main_v3, W3_weights, W3_sources, W3_targets, product2_eq, weights_eq]
  rfl

/-- The second bias as a row, read at a column. -/
theorem bias2_apply (k : Fin 32) : W7 m ρ c (Proc.devRef .tc Cert.KernelIdeal.main_v58) (ix2 0 k) = (m ((c : Thread Cert.KernelIdeal.nD Cert.KernelIdeal.τ).loc Cert.KernelIdeal.main_arg5)) (ix1 k) := by
  rw [W7_bias, W6_main_arg5, W3_main_arg5]
  exact shapeCast_a_1a_apply _ _ 0 k

/-- The head's bias as a row, read at a column. -/
theorem headBias_apply (k : Fin 20) : W7 m ρ c (Proc.devRef .tc Cert.KernelIdeal.main_v59) (ix2 0 k) = (m ((c : Thread Cert.KernelIdeal.nD Cert.KernelIdeal.τ).loc Cert.KernelIdeal.main_arg7)) (ix1 k) := by
  rw [W7_headBias, W6_main_arg7, W3_main_arg7]
  exact shapeCast_a_1a_apply _ _ 0 k

/-! ## The results -/

/-- The second result: the activated rows of the second layer. -/
theorem hidden_eq : W8 m ρ c (Proc.devRef .tc Cert.KernelIdeal.main_v60_1) = val_main_v81 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) := by
  funext i
  obtain ⟨r, q, rfl⟩ : ∃ (r : Fin 100000) (q : Fin 32), i = ix2 r q := ⟨i 0, i 1, eq_ix2 i⟩
  refine (congrFun (Cert.KernelIdeal.Gen.W8_arr m ρ c 5) (ix2 r q)).trans ?_
  rw [Cert.KernelIdeal.Head.final_hidden_apply, Cert.RefIndex.hidden2_apply]
  show Cert.Spec.act (W7 m ρ c (Proc.devRef .tc Cert.KernelIdeal.main_v57) (ix2 r q)) (W7 m ρ c (Proc.devRef .tc Cert.KernelIdeal.main_v58) (ix2 0 q)) = _
  rw [aggregate2_eq, bias2_apply]

/-- The first result: the row-wise log-softmax of the logits. -/
theorem out_eq : W8 m ρ c (Proc.devRef .tc Cert.KernelIdeal.main_v60_0) = val_main_v86 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  funext i
  obtain ⟨r, q, rfl⟩ : ∃ (r : Fin 100000) (q : Fin 20), i = ix2 r q := ⟨i 0, i 1, eq_ix2 i⟩
  refine (congrFun (Cert.KernelIdeal.Gen.W8_arr m ρ c 4) (ix2 r q)).trans ?_
  rw [Cert.KernelIdeal.Head.final_out_apply, Cert.RefIndex.out_apply]
  show Cert.Spec.logSoftmax (fun c' : Fin 20 =>
      Cert.Spec.dot (fun k : Fin 32 => Cert.Spec.act (W7 m ρ c (Proc.devRef .tc Cert.KernelIdeal.main_v57) (ix2 r k)) (W7 m ρ c (Proc.devRef .tc Cert.KernelIdeal.main_v58) (ix2 0 k)))
        (fun k : Fin 32 => W7 m ρ c (Proc.devRef .tc Cert.KernelIdeal.main_arg6) (ix2 k c'))
      + W7 m ρ c (Proc.devRef .tc Cert.KernelIdeal.main_v59) (ix2 0 c')) q = _
  rw [aggregate2_eq, W7_main_arg6, W3_main_arg6]
  simp only [Cert.RefIndex.hidden2_apply]
  exact congrArg (fun z => Cert.Spec.logSoftmax z q) (funext fun c' => congrArg₂ (· + ·)
    (congrArg₂ Cert.Spec.dot (funext fun k => congrArg (Cert.Spec.act _) (bias2_apply m ρ c k)) rfl) (headBias_apply m ρ c c'))

end Cert.Bridge

end
-- ==== Proof.lean ====
/-
  The certificate: a two-layer graph convolution with a log-softmax head, computed by three row-blocked Pallas regions
  among host gather / scatter operations, against its plain reference.

  The three frames: the word-level program and its idealization run, fault-free, and leave their arguments as launched
  (their generated frame certificates); the reference, a straight line of host operations, does too (its run, with the
  results dropped). The idealization rewrote nothing, so there is nothing to preserve. At the exact extended reals the
  two programs end with equal results: the kernel program's two result buffers hold, at the end of its eight segments,
  what the fold of the segments leaves there (Proof/Results.lean); walking that fold boundary by boundary
  (Proof/Boundaries.lean) and reading each region's blocks back into whole arrays (Proof/FirstProduct.lean,
  Proof/MiddleLayer.lean, Proof/Head.lean), those contents are the reference's stages of the same arguments
  (Proof/Bridge.lean, against the reference's stages read at an index, Proof/RefIndex.lean); and the reference's run ends
  with its results at those stages (Proof/RefStages.lean). The one place where the two texts differ in more than their
  arrangement is the normaliser of the node degrees, `rsqrt (max (deg, ε))` against `1 / sqrt (max (deg, ε))`, equal
  because the argument is never negative (Proof/LibInvSqrt.lean).
-/
import proofs.«162919_j33122787787017_1_alg».proof.Defs
import proofs.«162919_j33122787787017_1_alg».proof.Proof.Gen.Kernel
import proofs.«162919_j33122787787017_1_alg».proof.Proof.Gen.Kernel.Skeleton
import proofs.«162919_j33122787787017_1_alg».proof.Proof.Gen.Kernel.Launch
import proofs.«162919_j33122787787017_1_alg».proof.Proof.Gen.Kernel.Points
import proofs.«162919_j33122787787017_1_alg».proof.Proof.Gen.Kernel.Frame
import proofs.«162919_j33122787787017_1_alg».proof.Proof.Gen.KernelIdeal
import proofs.«162919_j33122787787017_1_alg».proof.Proof.Gen.KernelIdeal.Skeleton
import proofs.«162919_j33122787787017_1_alg».proof.Proof.Gen.KernelIdeal.Launch
import proofs.«162919_j33122787787017_1_alg».proof.Proof.Gen.KernelIdeal.Points
import proofs.«162919_j33122787787017_1_alg».proof.Proof.Gen.KernelIdeal.Frame
import proofs.«162919_j33122787787017_1_alg».proof.Proof.Gen.ReferenceIdeal
import proofs.«162919_j33122787787017_1_alg».proof.Proof.Gen.Pre_finite_inputs
import proofs.«162919_j33122787787017_1_alg».proof.Proof.Results
import proofs.«162919_j33122787787017_1_alg».proof.Proof.RefStages
import proofs.«162919_j33122787787017_1_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Stages.run (F := Ideal) m ρ)

/-- The idealization rewrote no operation. -/
theorem preserves : Cert.preserves_Kernel_KernelIdeal := trivial

/-- At the extended reals both programs, run from memories that agree on the arguments, end with the same two results:
    the kernel program's are the reference's stages of its own arguments, which are the reference's arguments. -/
theorem algebraic : Cert.algebraic_KernelIdeal_ReferenceIdeal := by
  intro m ρ m' ρ' _ hagree
  refine ⟨fun c => Cert.KernelIdeal.Gen.W8 m ρ c (Proc.devRef .tc Cert.KernelIdeal.main_v60_0),
    fun c => Cert.KernelIdeal.Gen.W8 m ρ c (Proc.devRef .tc Cert.KernelIdeal.main_v60_1),
    Cert.KernelIdeal.Results.run (F := Ideal) m ρ, ?_⟩
  refine (θ_run Cert.ReferenceIdeal.defs _ _).mono (fun _ h c => ⟨(h c).1.trans ?_, (h c).2.1.trans ?_, (h c).2.2⟩)
    (Cert.ReferenceIdeal.Stages.run (F := Ideal) m' ρ')
  · obtain ⟨a0, a1, a2, a3, a4, a5, a6, a7⟩ := hagree c
    rw [a0, a1, a2, a3, a4, a5, a6, a7]
    exact (Cert.Bridge.out_eq m ρ c).symm
  · obtain ⟨a0, a1, a2, a3, a4, a5, a6, a7⟩ := hagree c
    rw [a0, a1, a2, a3, a4, a5]
    exact (Cert.Bridge.hidden_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
